-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S1x64 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S4000x128 : Shape := ⟨2, ![4000, 128]⟩
abbrev S4000x64 : Shape := ⟨2, ![4000, 64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S4000x1 : Shape := ⟨2, ![4000, 1]⟩
abbrev S64x1 : Shape := ⟨2, ![64, 1]⟩
abbrev S1x1 : Shape := ⟨2, ![1, 1]⟩

abbrev nBuf : Space → Nat
  | .hbm => 40
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S64x128, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S64x128, .f32⟩
  | .local _ .vmem, ⟨12, _⟩ => ⟨S64, .f32⟩
  | .local _ .vmem, ⟨13, _⟩ => ⟨S1x64, .f32⟩
  | .local _ .vmem, ⟨14, _⟩ => ⟨S1, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S4000x64_S4000x64_0_0 : ∀ a, (![0, 0] : Fin 2 → Nat) a + S4000x64.size a ≤ S4000x64.size a
  h_S4000x64 : 0 < S4000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S1x64_S1x64_0_0 : ∀ a, (![0, 0] : Fin 2 → Nat) a + S1x64.size a ≤ S1x64.size a
  h_S1x64 : 0 < S1x64.numel
  transposes_S1x64_p1_0_S64x1 : S1x64.Transposes [1, 0] S64x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S100000x64.size a
  hwx1_7 : ∀ i : grid1.Coords, EltTy.bits .f32 = 32 ∨ (Rect.block (s := S100000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x1.size a ≤ S100000x1.size a
  hwx1_8 : ∀ i : grid1.Coords, EltTy.bits .f32 = 32 ∨ (Rect.block (s := S100000x1) S4000x1.size (cc1_transform_8 i) (hinb1_8 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24_0) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v24_1) S4000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S64x1 : Shape := ⟨2, ![64, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S128x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S64x1, .f32⟩
  | .hbm, ⟨51, _⟩ => ⟨S100000x1, .f32⟩
  | .hbm, ⟨52, _⟩ => ⟨S1x1, .f32⟩
  | .hbm, ⟨53, _⟩ => ⟨S100000x1, .f32⟩
  | .hbm, ⟨54, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The two-launch program's run with its results named.

  The program is four segments: host operations, a first launch over 25 row blocks, host operations, a second launch
  over 25 row blocks.  The buffer contents at each segment boundary are a fold from the launch memory; after the last
  segment every unscoped buffer holds that fold's last value.  Read at the two result buffers this is what the second
  launch's write-backs leave in its two output arrays; read at the seven argument buffers it is the launch contents.
-/
import proofs.«165032_j76149770158552_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the two results hold what the second launch's write-backs leave in its
    output arrays, and the arguments are as launched. -/
theorem run_exit : θ_run defs (onTc (τ := τ) (main (F := F))) ⟨m, fun _ => 0, ρ⟩ (fun r => ∀ c : Dev nD,
      r.2.mem ((c.tc : Thread nD τ).loc main_v24_0) = (dat1 (V3 m ρ) c).arrAt 7 cfg1.N
      ∧ r.2.mem ((c.tc : Thread nD τ).loc main_v24_1) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v24_0 (by decide))).trans (W4_arr m ρ c 7),
       (h c _ (mem_uc main_v24_1 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.Spec.lean ====
/-
  One layer of mean-aggregation message passing on a graph of 100000 nodes and 1600000 edges, then a linear head.

  A node's input features are rectified.  Every edge `e` names a source row (its start index read as a signed
  integer and clamped into the table) and a destination; the in-edges of node `i` are the edges whose destination,
  read as a signed integer, is `i`.  The hidden value of node `i` is the rectified sum of three terms: the mean of
  its in-neighbours' features projected by `Wl`, a bias, and its own features projected by `Wr`.

  Two arrangements of the first term are written down.  One projects every node's features to 64 columns first,
  sums the projected rows of the in-neighbours and multiplies by the reciprocal of the count (`hidProj`); the other
  sums the 128-column feature rows of the in-neighbours, divides by the count and projects the mean (`hidFeat`).
  The count `c i` is a parameter here: both arrangements read the same one.
-/
import Mathlib.Tactic
import Idealize.ShloMosaic.PureOps.Ideal
import Idealize.ShloMosaic.Lib.ValueIdx

noncomputable section

namespace Cert.Sage

open Idealize.ShloMosaic Idealize.ShloMosaic.ValueIdx
open scoped BigOperators

/-- The rectifier on the extended reals. -/
def relu (v : EReal) : EReal := max v 0

variable (x : (⟨2, ![100000, 128]⟩ : Shape).Idx → EReal)
  (sidx didx : (⟨2, ![1600000, 1]⟩ : Shape).Idx → BitVec 32)
  (c : Fin 100000 → EReal)
  (Wl Wr : (⟨2, ![64, 128]⟩ : Shape).Idx → EReal) (bl : (⟨1, ![64]⟩ : Shape).Idx → EReal)
  (Wh : (⟨2, ![1, 64]⟩ : Shape).Idx → EReal) (bh : (⟨1, ![1]⟩ : Shape).Idx → EReal)

/-- The table row edge `e` reads: its start index as a signed integer, clamped into `[0, 99999]`. -/
def srcRow (e : Fin 1600000) : Fin 100000 :=
  ⟨min (sidx (ix2 e (0 : Fin 1))).toInt.toNat (100000 - 1), by omega⟩

/-- The edges that end at node `i`. -/
def inEdges (i : Fin 100000) : Finset (Fin 1600000) :=
  Finset.univ.filter fun e => (didx (ix2 e (0 : Fin 1))).toInt = (i.val : ℤ)

/-- Node `n`'s rectified features projected by `Wl`, column `j`. -/
def proj (n : Fin 100000) (j : Fin 64) : EReal := ∑ k : Fin 128, relu (x (ix2 n k)) * Wl (ix2 j k)

/-- The sum over node `i`'s in-edges of the projected source rows, column `j`. -/
def aggProj (i : Fin 100000) (j : Fin 64) : EReal := ∑ e ∈ inEdges didx i, proj x Wl (srcRow sidx e) j

/-- The sum over node `i`'s in-edges of the rectified source rows, feature `k`. -/
def aggFeat (i : Fin 100000) (k : Fin 128) : EReal := ∑ e ∈ inEdges didx i, relu (x (ix2 (srcRow sidx e) k))

/-- Node `i`'s own rectified features projected by `Wr`, column `j`. -/
def root (i : Fin 100000) (j : Fin 64) : EReal := ∑ k : Fin 128, relu (x (ix2 i k)) * Wr (ix2 j k)

/-- The hidden value, projecting before aggregating and multiplying by the count's reciprocal. -/
def hidProj (i : Fin 100000) (j : Fin 64) : EReal :=
  relu ((aggProj x sidx didx Wl i j * Ideal.div 1 (c i) + bl (ix1 j)) + root x Wr i j)

/-- The hidden value, aggregating features, dividing by the count and projecting the mean. -/
def hidFeat (i : Fin 100000) (j : Fin 64) : EReal :=
  relu (((∑ k : Fin 128, Ideal.div (aggFeat x sidx didx i k) (c i) * Wl (ix2 j k)) + bl (ix1 j)) + root x Wr i j)

/-- The head: a hidden row against the one row of `Wh`, plus the bias. -/
def head (h : Fin 100000 → Fin 64 → EReal) (i : Fin 100000) : EReal :=
  (∑ j : Fin 64, h i j * Wh (ix2 (0 : Fin 1) j)) + bh (ix1 (0 : Fin 1))

end Cert.Sage

end
-- ==== Proof.KernelPayload.lean ====
/-
  The three values the kernel stores, read at one index, over the extended reals.

  Each stored value is one term over the values loaded before it.  Read at a row `r` and a column, every pointwise
  operation reads its operands at the same index, every layout operation (a transpose, a broadcast along a unit
  axis, a cast that adds a unit axis) reads its operand at one index fixed by the coordinates, a change of float
  format is the identity, the zero word denotes `0`, and a matrix product into the zero accumulator is the sum over
  the one contracted axis.  So:

  * the projection is  `∑ k, relu (x (r,k)) * W (j,k)`;
  * the hidden value is  `relu ((agg (r,j) * inv (r,0) + b j) + ∑ k, relu (x (r,k)) * W' (j,k))`;
  * the head is  `(∑ j, hidden (r,j) * Wh (0,j)) + bh 0`.
-/
import proofs.«165032_j76149770158552_2_alg».proof.Proof.Gen.KernelIdeal.Skeleton
import proofs.«165032_j76149770158552_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Sage
open scoped BigOperators

/-! ## A column broadcast along the rows' second axis -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products into the zero accumulator -/

/-- The first product's left index keeps the result's row. -/
theorem lhs128_0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- The first product's right index keeps the result's column. -/
theorem rhs128_1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- A `[4000,128] × [128,64]` product into the zero accumulator, at `(r, j)`: the sum over the 128 contracted positions. -/
theorem matmul128_apply {φ₁ φ₂ : FTy} (lhs : FVec Ideal S4000x128 φ₁) (rhs : FVec Ideal S128x64 φ₂) (r : Fin 4000) (j : Fin 64) :
    matmul (F := Ideal) dot_S4000x128_S128x64_S4000x64_1_0_0_1_n_n none lhs rhs (constant (F := Ideal) S4000x64 .f32 0x00000000#32) (ix2 r j)
      = ∑ k : Fin 128, lhs (ix2 r k) * rhs (ix2 k j) := by
  refine (Ideal.matmul_constant_zero_apply dot_S4000x128_S128x64_S4000x64_1_0_0_1_n_n none lhs rhs (ix2 r j)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r j) ((contrEquiv1 dot_S4000x128_S128x64_S4000x64_1_0_0_1_n_n 128 rfl rfl).symm k) = ix2 r k :=
    funext fun a => Fin.ext (by
      match a with
      | ⟨0, _⟩ => exact lhs128_0 _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 r j) ((contrEquiv1 dot_S4000x128_S128x64_S4000x64_1_0_0_1_n_n 128 rfl rfl).symm k) = ix2 k j :=
    funext fun a => Fin.ext (by
      match a with
      | ⟨0, _⟩ => exact (dot_S4000x128_S128x64_S4000x64_1_0_0_1_n_n.rhsIdx_val_of_single rfl _ _).trans hk
      | ⟨1, _⟩ => exact rhs128_1 _ _)
  rw [el, er]

/-- The second product's left index keeps the result's row. -/
theorem lhs64_0 (i : S4000x1.Idx) (q : dot_S4000x64_S64x1_S4000x1_1_0_0_1_n_n.contr.Idx) : (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide),
    dif_pos (show (0 : Fin S4000x64.rank) ∈ dot_S4000x64_S64x1_S4000x1_1_0_0_1_n_n.lhsNonContracting by decide)]
  rfl

/-- The second product's right index keeps the result's column. -/
theorem rhs64_1 (i : S4000x1.Idx) (q : dot_S4000x64_S64x1_S4000x1_1_0_0_1_n_n.contr.Idx) : (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide),
    dif_pos (show (1 : Fin S64x1.rank) ∈ dot_S4000x64_S64x1_S4000x1_1_0_0_1_n_n.rhsNonContracting by decide)]
  rfl

/-- A `[4000,64] × [64,1]` product into the zero accumulator, at `(r, 0)`: the sum over the 64 contracted positions. -/
theorem matmul64_apply {φ₁ φ₂ : FTy} (lhs : FVec Ideal S4000x64 φ₁) (rhs : FVec Ideal S64x1 φ₂) (r : Fin 4000) (u : Fin 1) :
    matmul (F := Ideal) dot_S4000x64_S64x1_S4000x1_1_0_0_1_n_n none lhs rhs (constant (F := Ideal) S4000x1 .f32 0x00000000#32) (ix2 r u)
      = ∑ k : Fin 64, lhs (ix2 r k) * rhs (ix2 k u) := by
  refine (Ideal.matmul_constant_zero_apply dot_S4000x64_S64x1_S4000x1_1_0_0_1_n_n none lhs rhs (ix2 r u)).trans ?_
  rw [← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 r u) ((contrEquiv1 dot_S4000x64_S64x1_S4000x1_1_0_0_1_n_n 64 rfl rfl).symm k) = ix2 r k :=
    funext fun a => Fin.ext (by
      match a with
      | ⟨0, _⟩ => exact lhs64_0 _ _
      | ⟨1, _⟩ => exact (dot_S4000x64_S64x1_S4000x1_1_0_0_1_n_n.lhsIdx_val_of_single rfl _ _).trans hk)
  have er : dot_S4000x64_S64x1_S4000x1_1_0_0_1_n_n.rhsIdx (ix2 r u) ((contrEquiv1 dot_S4000x64_S64x1_S4000x1_1_0_0_1_n_n 64 rfl rfl).symm k) = ix2 k u :=
    funext fun a => Fin.ext (by
      match a with
      | ⟨0, _⟩ => exact (dot_S4000x64_S64x1_S4000x1_1_0_0_1_n_n.rhsIdx_val_of_single rfl _ _).trans hk
      | ⟨1, _⟩ => exact rhs64_1 _ _)
  rw [el, er]

/-! ## The rectified features against a transposed weight matrix -/

/-- The rectified, narrowed features times the narrowed, transposed weights, into the zero accumulator, at `(r, j)`. -/
theorem relu_proj_apply (x : Vec Ideal S4000x128 .f32) (W : Vec Ideal S64x128 .f32) (r : Fin 4000) (j : Fin 64) :
    matmul (F := Ideal) dot_S4000x128_S128x64_S4000x64_1_0_0_1_n_n none
        (truncf .bf16 (maximumf x (broadcast S4000x128 (Scalar.ofBits (F := Ideal) .f32 0x00000000#32))) bitsLt_bf16_f32)
        (transpose S128x64 [1, 0] (truncf .bf16 W bitsLt_bf16_f32) transposes_S64x128_p1_0_S128x64)
        (constant (F := Ideal) S4000x64 .f32 0x00000000#32) (ix2 r j)
      = ∑ k : Fin 128, relu (x (ix2 r k)) * W (ix2 j k) := by
  refine (matmul128_apply _ _ r j).trans ?_
  refine Finset.sum_congr rfl fun k _ => ?_
  rw [transpose_ix2_apply]
  show max (x (ix2 r k)) (Ideal.ofBits .f32 0x00000000#32) * W (ix2 j k) = _
  rw [Ideal.ofBits_zero_f32]
  rfl

/-! ## The three payloads -/

/-- The projection kernel's stored value at `(r, j)`. -/
theorem pay_proj (x0 : Vec Ideal S4000x128 .f32) (x1 : Vec Ideal S64x128 .f32) (r : Fin 4000) (j : Fin 64) :
    k0_pay1 (F := Ideal) x0 x1 (ix2 r j) = ∑ k : Fin 128, relu (x0 (ix2 r k)) * x1 (ix2 j k) := by
  unfold k0_pay1
  exact relu_proj_apply x0 x1 r j

/-- The dense kernel's first stored value (the hidden value) at `(r, j)`. -/
theorem pay_hidden (v0 : Vec Ideal S4000x64 .f32) (v2 : Vec Ideal S4000x1 .f32) (v6 : Vec Ideal S64 .f32)
    (v10 : Vec Ideal S4000x128 .f32) (v14 : Vec Ideal S64x128 .f32) (r : Fin 4000) (j : Fin 64) :
    k1_pay1 (F := Ideal) v0 v2 v6 v10 v14 (ix2 r j)
      = relu ((v0 (ix2 r j) * v2 (ix2 r (0 : Fin 1)) + v6 (ix1 j))
          + ∑ k : Fin 128, relu (v10 (ix2 r k)) * v14 (ix2 j k)) := by
  unfold k1_pay1
  have e1 : shapeCast S4000x64 v0 shapeCasts_S4000x64_S4000x64 (ix2 r j) = v0 (ix2 r j) := by
    rw [shapeCast_self]
  have e2 : broadcastTo S4000x64 (shapeCast S4000x1 v2 shapeCasts_S4000x1_S4000x1) broadcasts_S4000x1_S4000x64 (ix2 r j)
      = v2 (ix2 r (0 : Fin 1)) := by
    rw [broadcastTo_a1_ab_apply, shapeCast_self]
  have e3 : broadcastTo S4000x64 (shapeCast S1x64 v6 shapeCasts_S64_S1x64) broadcasts_S1x64_S4000x64 (ix2 r j)
      = v6 (ix1 j) := by
    rw [broadcastTo_1b_ab_apply, shapeCast_a_1a_apply]
  have e4 := relu_proj_apply v10 v14 r j
  show max ((shapeCast S4000x64 v0 shapeCasts_S4000x64_S4000x64 (ix2 r j)
        * broadcastTo S4000x64 (shapeCast S4000x1 v2 shapeCasts_S4000x1_S4000x1) broadcasts_S4000x1_S4000x64 (ix2 r j)
        + broadcastTo S4000x64 (shapeCast S1x64 v6 shapeCasts_S64_S1x64) broadcasts_S1x64_S4000x64 (ix2 r j))
        + _) (Ideal.ofBits .f32 0x00000000#32) = _
  rw [e1, e2, e3, e4, Ideal.ofBits_zero_f32]
  rfl

/-- The dense kernel's second stored value (the head) at `(r, 0)`. -/
theorem pay_head (v0 : Vec Ideal S4000x64 .f32) (v2 : Vec Ideal S4000x1 .f32) (v6 : Vec Ideal S64 .f32)
    (v10 : Vec Ideal S4000x128 .f32) (v14 : Vec Ideal S64x128 .f32) (v23 : Vec Ideal S1x64 .f32) (v27 : Vec Ideal S1 .f32)
    (r : Fin 4000) :
    k1_pay2 (F := Ideal) v0 v2 v6 v10 v14 v23 v27 (ix2 r (0 : Fin 1))
      = (∑ j : Fin 64, k1_pay1 (F := Ideal) v0 v2 v6 v10 v14 (ix2 r j) * v23 (ix2 (0 : Fin 1) j)) + v27 (ix1 (0 : Fin 1)) := by
  unfold k1_pay2
  have e1 := matmul64_apply (truncf .bf16 (k1_pay1 (F := Ideal) v0 v2 v6 v10 v14) bitsLt_bf16_f32)
    (transpose S64x1 [1, 0] (truncf .bf16 v23 bitsLt_bf16_f32) transposes_S1x64_p1_0_S64x1) r (0 : Fin 1)
  have e2 : broadcastTo S4000x1 (shapeCast S1x1 v27 shapeCasts_S1_S1x1) broadcasts_S1x1_S4000x1 (ix2 r (0 : Fin 1))
      = v27 (ix1 (0 : Fin 1)) := by
    rw [broadcastTo_1b_ab_apply, shapeCast_a_1a_apply]
  show _ + broadcastTo S4000x1 (shapeCast S1x1 v27 shapeCasts_S1_S1x1) broadcasts_S1x1_S4000x1 (ix2 r (0 : Fin 1)) = _
  rw [e2]
  refine congrArg (· + v27 (ix1 (0 : Fin 1))) (e1.trans (Finset.sum_congr rfl fun k _ => ?_))
  rw [transpose_ix2_apply]
  rfl

end Cert.KernelIdeal.Pay

end
-- ==== Proof.KernelProj.lean ====
/-
  The first launch: every node's rectified features projected to 64 columns.

  The launch walks 25 blocks of 4000 rows.  At block `t` the body reads rows `4000 t … 4000 t + 3999` of the features and
  the whole weight matrix, and writes rows `4000 t … 4000 t + 3999` of the output: entry `(r, j)` of the block is the
  sum over `k` of the rectified feature `(4000 t + r, k)` times the weight `(j, k)`.  So each written block is the
  restriction of ONE array, `projArr`, and since the 25 blocks tile the 100000 rows the output array ends holding it.
-/
import proofs.«165032_j76149770158552_2_alg».proof.Proof.Gen.KernelIdeal.Frame
import proofs.«165032_j76149770158552_2_alg».proof.Proof.Spec
import proofs.«165032_j76149770158552_2_alg».proof.Proof.KernelPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-block access. -/
theorem hz0 : (![0, 0] : Fin 2 → Nat) = fun _ => 0 := funext fun a => by fin_cases a <;> rfl

/-- The three windows' block indices at grid point `t`: the features and the output are at row block `t`, the weight
    matrix is resident at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every node's rectified features projected by the first weight matrix, as one array. -/
def projArr (x : S100000x128.Idx → EReal) (Wl : S64x128.Idx → EReal) : S100000x64.Idx → EReal :=
  fun i => Cert.Sage.proj x Wl (i 0) (i 1)

/-- What block `t` writes back is rows `4000 t … 4000 t + 3999` of `projArr`: the feature block is read at those rows,
    the weight matrix whole. -/
theorem flushed0_eq (c : Dev nD) (t : Fin cfg0.N) :
    (dat0 V c).flushed 2 t = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero hz0]
  simp only [View.ld_unit_zero (S := S4000x128) hz0, View.ld_unit_zero (S := S64x128) hz0]
  obtain ⟨e0, e1, e2, e3, e4, e5⟩ := idx_facts0 t
  funext y
  obtain ⟨r, j, rfl⟩ : ∃ (r : Fin 4000) (j : Fin 64), y = ix2 r j := ⟨y 0, y 1, eq_ix2 y⟩
  show k0_pay1 (F := Ideal) (iblk0 V c 0 t) (iblk0 V c 1 t) (ix2 r j) = projArr (V c main_arg0) (V c main_arg2) (((cfg0.win 2).blk t).view.emb (ix2 r j))
  refine (Cert.KernelIdeal.Pay.pay_proj (iblk0 V c 0 t) (iblk0 V c 1 t) r j).trans ?_
  unfold projArr Cert.Sage.proj
  refine Finset.sum_congr rfl fun k _ => ?_
  have h0 : (iblk0 V c 0 t : S4000x128.Idx → EReal) (ix2 r k) = (V c main_arg0 : S100000x128.Idx → EReal) (ix2 ((((cfg0.win 2).blk t).view.emb (ix2 r j)) 0) k) := by
    show (V c main_arg0 : S100000x128.Idx → EReal) (((cfg0.win 0).blk t).view.emb (ix2 r k)) = _
    congr 1
    funext a
    apply Fin.ext
    match a with
    | ⟨0, _⟩ => show win0_0.index t (0 : Fin 2) * 4000 + 1 * r.val = win0_2.index t (0 : Fin 2) * 4000 + 1 * r.val; omega
    | ⟨1, _⟩ => show win0_0.index t (1 : Fin 2) * 128 + 1 * k.val = k.val; omega
  have h1 : (iblk0 V c 1 t : S64x128.Idx → EReal) (ix2 j k) = (V c main_arg2 : S64x128.Idx → EReal) (ix2 ((((cfg0.win 2).blk t).view.emb (ix2 r j)) 1) k) := by
    show (V c main_arg2 : S64x128.Idx → EReal) (((cfg0.win 1).blk t).view.emb (ix2 j k)) = _
    congr 1
    funext a
    apply Fin.ext
    match a with
    | ⟨0, _⟩ => show win0_1.index t (0 : Fin 2) * 64 + 1 * j.val = win0_2.index t (1 : Fin 2) * 64 + 1 * j.val; omega
    | ⟨1, _⟩ => show win0_1.index t (1 : Fin 2) * 128 + 1 * k.val = k.val; omega
  rw [h0, h1]

/-- An index of the output is in block `t` iff its row is among the block's 4000 rows. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v4).slice (win0_2.rect t)).set ↔ _
  rw [View.set_slice_whole, Rect.mem_set_unit]
  exact Iff.rfl

/-- Row `n` of the output is written at block `n / 4000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  have ht : (i 0).val / 4000 < cfg0.N := by rw [hN]; omega
  obtain ⟨e0, e1, e2, e3, e4, e5⟩ := idx_facts0 ⟨(i 0).val / 4000, ht⟩
  refine ⟨⟨(i 0).val / 4000, ht⟩, flush0_2 _, ?_⟩
  rw [mem_blk0]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 64 ≤ (i 1).val ∧ (i 1).val < win0_2.index ⟨(i 0).val / 4000, ht⟩ (1 : Fin 2) * 64 + 64
    rw [e5]; omega

/-- After the first launch its output array holds every node's projected features. -/
theorem final0 (c : Dev nD) : (dat0 V c).arrAt 2 cfg0.N = projArr (V c main_arg0) (V c main_arg2) :=
  (dat0 V c).arrAt_eq_of_cover 2 (projArr (V c main_arg0) (V c main_arg2)) (fun t _ => flushed0_eq V c t) cover0

end Cert.KernelIdeal.Hand

end
-- ==== Proof.KernelDense.lean ====
/-
  The second launch: the hidden array and the head.

  The launch walks 25 blocks of 4000 rows.  At block `t` the body reads rows `4000 t … 4000 t + 3999` of the aggregate,
  of the reciprocal counts and of the features, and the second weight matrix, the bias, the head's row and the head's
  bias whole; it writes rows `4000 t … 4000 t + 3999` of the two outputs.  Each written block is the restriction of
  one array (`hidArr`, `headArr`) of the arrays the launch reads, so the outputs end holding those arrays.
-/
import proofs.«165032_j76149770158552_2_alg».proof.Proof.Gen.KernelIdeal.Frame
import proofs.«165032_j76149770158552_2_alg».proof.Proof.Spec
import proofs.«165032_j76149770158552_2_alg».proof.Proof.KernelPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Sage (relu)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The nine windows' block indices at grid point `t`: the row-tiled windows are at block `t`, the resident ones at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The hidden array the second launch writes, from the five arrays it reads: the aggregate times the reciprocal
    count of the row, plus the bias of the column, plus the row's rectified features against the second weight
    matrix, rectified. -/
def hidArr (agg : S100000x64.Idx → EReal) (inv : S100000x1.Idx → EReal) (x : S100000x128.Idx → EReal)
    (Wr : S64x128.Idx → EReal) (bl : S64.Idx → EReal) : S100000x64.Idx → EReal := fun i =>
  relu ((agg (ix2 (i 0) (i 1)) * inv (ix2 (i 0) (0 : Fin 1)) + bl (ix1 (i 1)))
    + ∑ k : Fin 128, relu (x (ix2 (i 0) k)) * Wr (ix2 (i 1) k))

/-- The head array the second launch writes: a hidden row against the head's one row, plus its bias. -/
def headArr (h : S100000x64.Idx → EReal) (Wh : S1x64.Idx → EReal) (bh : S1.Idx → EReal) : S100000x1.Idx → EReal := fun i =>
  (∑ j : Fin 64, h (ix2 (i 0) j) * Wh (ix2 (0 : Fin 1) j)) + bh (ix1 (0 : Fin 1))

/-- Entry `(r, j)` of what the body computes at block `t` is the hidden array at row `4000 t + r`, column `j`: every
    row-tiled operand is read at that row, every resident operand whole. -/
theorem hid_block (c : Dev nD) (t : Fin cfg1.N) (r : Fin 4000) (j : Fin 64) (n : Fin 100000) (hn : n.val = t.val * 4000 + r.val) :
    k1_pay1 (F := Ideal) (iblk1 V c 0 t) (iblk1 V c 1 t) (iblk1 V c 4 t) (iblk1 V c 2 t) (iblk1 V c 3 t) (ix2 r j)
      = hidArr (V c main_v14) (V c main_v23) (V c main_arg0) (V c main_arg4) (V c main_arg3) (ix2 n j) := by
  obtain ⟨e00, e01, e10, e11, e20, e21, e30, e31, e40, e50, e51, e60, e70, e71, e80, e81⟩ := idx_facts1 t
  refine (Cert.KernelIdeal.Pay.pay_hidden (iblk1 V c 0 t) (iblk1 V c 1 t) (iblk1 V c 4 t) (iblk1 V c 2 t) (iblk1 V c 3 t) r j).trans ?_
  unfold hidArr
  have h0 : (iblk1 V c 0 t : S4000x64.Idx → EReal) (ix2 r j) = (V c main_v14 : S100000x64.Idx → EReal) (ix2 n j) := by
    show (V c main_v14 : S100000x64.Idx → EReal) (((cfg1.win 0).blk t).view.emb (ix2 r j)) = _
    congr 1; funext a; apply Fin.ext
    match a with
    | ⟨0, _⟩ => show win1_0.index t (0 : Fin 2) * 4000 + 1 * r.val = n.val; omega
    | ⟨1, _⟩ => show win1_0.index t (1 : Fin 2) * 64 + 1 * j.val = j.val; omega
  have h1 : (iblk1 V c 1 t : S4000x1.Idx → EReal) (ix2 r (0 : Fin 1)) = (V c main_v23 : S100000x1.Idx → EReal) (ix2 n (0 : Fin 1)) := by
    show (V c main_v23 : S100000x1.Idx → EReal) (((cfg1.win 1).blk t).view.emb (ix2 r (0 : Fin 1))) = _
    congr 1; funext a; apply Fin.ext
    match a with
    | ⟨0, _⟩ => show win1_1.index t (0 : Fin 2) * 4000 + 1 * r.val = n.val; omega
    | ⟨1, _⟩ => show win1_1.index t (1 : Fin 2) * 1 + 1 * 0 = 0; omega
  have h4 : (iblk1 V c 4 t : S64.Idx → EReal) (ix1 j) = (V c main_arg3 : S64.Idx → EReal) (ix1 j) := by
    show (V c main_arg3 : S64.Idx → EReal) (((cfg1.win 4).blk t).view.emb (ix1 j)) = _
    congr 1; funext a; apply Fin.ext
    match a with
    | ⟨0, _⟩ => show win1_4.index t (0 : Fin 1) * 64 + 1 * j.val = j.val; omega
  have h2 : ∀ k : Fin 128, (iblk1 V c 2 t : S4000x128.Idx → EReal) (ix2 r k) = (V c main_arg0 : S100000x128.Idx → EReal) (ix2 n k) := fun k => by
    show (V c main_arg0 : S100000x128.Idx → EReal) (((cfg1.win 2).blk t).view.emb (ix2 r k)) = _
    congr 1; funext a; apply Fin.ext
    match a with
    | ⟨0, _⟩ => show win1_2.index t (0 : Fin 2) * 4000 + 1 * r.val = n.val; omega
    | ⟨1, _⟩ => show win1_2.index t (1 : Fin 2) * 128 + 1 * k.val = k.val; omega
  have h3 : ∀ k : Fin 128, (iblk1 V c 3 t : S64x128.Idx → EReal) (ix2 j k) = (V c main_arg4 : S64x128.Idx → EReal) (ix2 j k) := fun k => by
    show (V c main_arg4 : S64x128.Idx → EReal) (((cfg1.win 3).blk t).view.emb (ix2 j k)) = _
    congr 1; funext a; apply Fin.ext
    match a with
    | ⟨0, _⟩ => show win1_3.index t (0 : Fin 2) * 64 + 1 * j.val = j.val; omega
    | ⟨1, _⟩ => show win1_3.index t (1 : Fin 2) * 128 + 1 * k.val = k.val; omega
  rw [h0, h1, h4]
  refine congrArg relu (congrArg (_ + ·) (Finset.sum_congr rfl fun k _ => ?_))
  rw [h2 k, h3 k]

/-- What block `t` writes back to the hidden output is rows `4000 t … 4000 t + 3999` of the hidden array. -/
theorem flushed1_7_eq (c : Dev nD) (t : Fin cfg1.N) :
    (dat1 V c).flushed 7 t = ((cfg1.win 7).blk t).view.read (Elt Ideal) (hidArr (V c main_v14) (V c main_v23) (V c main_arg0) (V c main_arg4) (V c main_arg3)) := by
  show (cfg1.win 7).cut (grid1.coords t) ((dat1 V c).after 7 t) = _
  rw [after1_7]
  unfold out1_7
  rw [View.canon_unit_zero hz2]
  simp only [View.ld_unit_zero (S := S4000x64) hz2, View.ld_unit_zero (S := S4000x1) hz2, View.ld_unit_zero (S := S4000x128) hz2, View.ld_unit_zero (S := S64x128) hz2, View.ld_unit_zero (S := S64) hz1]
  funext y
  obtain ⟨r, j, rfl⟩ : ∃ (r : Fin 4000) (j : Fin 64), y = ix2 r j := ⟨y 0, y 1, eq_ix2 y⟩
  obtain ⟨e00, e01, e10, e11, e20, e21, e30, e31, e40, e50, e51, e60, e70, e71, e80, e81⟩ := idx_facts1 t
  have hN : cfg1.N = 25 := N_1
  have ht : t.val < 25 := hN ▸ t.isLt
  show k1_pay1 (F := Ideal) (iblk1 V c 0 t) (iblk1 V c 1 t) (iblk1 V c 4 t) (iblk1 V c 2 t) (iblk1 V c 3 t) (ix2 r j)
    = hidArr (V c main_v14) (V c main_v23) (V c main_arg0) (V c main_arg4) (V c main_arg3) (((cfg1.win 7).blk t).view.emb (ix2 r j))
  have hE : ((cfg1.win 7).blk t).view.emb (ix2 r j) = (ix2 (⟨t.val * 4000 + r.val, by omega⟩ : Fin 100000) j : S100000x64.Idx) := by
    funext a; apply Fin.ext
    match a with
    | ⟨0, _⟩ => show win1_7.index t (0 : Fin 2) * 4000 + 1 * r.val = t.val * 4000 + r.val; omega
    | ⟨1, _⟩ => show win1_7.index t (1 : Fin 2) * 64 + 1 * j.val = j.val; omega
  rw [hE]
  exact hid_block V c t r j _ rfl

/-- An index of the hidden output is in block `t` iff its row is among the block's 4000 rows. -/
theorem mem_blk1_7 (t : Fin cfg1.N) (i : S100000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v24_0).slice (win1_7.rect t)).set ↔ _
  rw [View.set_slice_whole, Rect.mem_set_unit]
  exact Iff.rfl

/-- Row `n` of the hidden output is written at block `n / 4000`. -/
theorem cover1_7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨e00, e01, e10, e11, e20, e21, e30, e31, e40, e50, e51, e60, e70, e71, e80, e81⟩ := idx_facts1 ⟨(i 0).val / 4000, ht⟩
  refine ⟨⟨(i 0).val / 4000, ht⟩, flush1_7 _, ?_⟩
  rw [mem_blk1_7]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e70]; show (i 0).val / 4000 * 4000 ≤ (i 0).val ∧ (i 0).val < (i 0).val / 4000 * 4000 + 4000; omega
  | ⟨1, _⟩ =>
    show win1_7.index ⟨(i 0).val / 4000, ht⟩ (1 : Fin 2) * 64 ≤ (i 1).val ∧ (i 1).val < win1_7.index ⟨(i 0).val / 4000, ht⟩ (1 : Fin 2) * 64 + 64
    rw [e71]; omega

/-- After the second launch its first output holds the hidden array. -/
theorem final1_7 (c : Dev nD) : (dat1 V c).arrAt 7 cfg1.N = hidArr (V c main_v14) (V c main_v23) (V c main_arg0) (V c main_arg4) (V c main_arg3) :=
  (dat1 V c).arrAt_eq_of_cover 7 _ (fun t _ => flushed1_7_eq V c t) cover1_7

/-- What block `t` writes back to the head output is rows `4000 t … 4000 t + 3999` of the head array. -/
theorem flushed1_8_eq (c : Dev nD) (t : Fin cfg1.N) :
    (dat1 V c).flushed 8 t = ((cfg1.win 8).blk t).view.read (Elt Ideal)
      (headArr (hidArr (V c main_v14) (V c main_v23) (V c main_arg0) (V c main_arg4) (V c main_arg3)) (V c main_arg5) (V c main_arg6)) := by
  show (cfg1.win 8).cut (grid1.coords t) ((dat1 V c).after 8 t) = _
  rw [after1_8]
  unfold out1_8
  rw [View.canon_unit_zero hz2]
  simp only [View.ld_unit_zero (S := S4000x64) hz2, View.ld_unit_zero (S := S4000x1) hz2, View.ld_unit_zero (S := S4000x128) hz2, View.ld_unit_zero (S := S64x128) hz2, View.ld_unit_zero (S := S64) hz1, View.ld_unit_zero (S := S1x64) hz2, View.ld_unit_zero (S := S1) hz1]
  funext y
  obtain ⟨r, u, rfl⟩ : ∃ (r : Fin 4000) (u : Fin 1), y = ix2 r u := ⟨y 0, y 1, eq_ix2 y⟩
  obtain rfl : u = 0 := Subsingleton.elim _ _
  obtain ⟨e00, e01, e10, e11, e20, e21, e30, e31, e40, e50, e51, e60, e70, e71, e80, e81⟩ := idx_facts1 t
  have hN : cfg1.N = 25 := N_1
  have ht : t.val < 25 := hN ▸ t.isLt
  show k1_pay2 (F := Ideal) (iblk1 V c 0 t) (iblk1 V c 1 t) (iblk1 V c 4 t) (iblk1 V c 2 t) (iblk1 V c 3 t) (iblk1 V c 5 t) (iblk1 V c 6 t) (ix2 r (0 : Fin 1))
    = headArr (hidArr (V c main_v14) (V c main_v23) (V c main_arg0) (V c main_arg4) (V c main_arg3)) (V c main_arg5) (V c main_arg6) (((cfg1.win 8).blk t).view.emb (ix2 r (0 : Fin 1)))
  have hE : ((cfg1.win 8).blk t).view.emb (ix2 r (0 : Fin 1)) = (ix2 (⟨t.val * 4000 + r.val, by omega⟩ : Fin 100000) (0 : Fin 1) : S100000x1.Idx) := by
    funext a; apply Fin.ext
    match a with
    | ⟨0, _⟩ => show win1_8.index t (0 : Fin 2) * 4000 + 1 * r.val = t.val * 4000 + r.val; omega
    | ⟨1, _⟩ => show win1_8.index t (1 : Fin 2) * 1 + 1 * 0 = 0; omega
  rw [hE]
  refine (Cert.KernelIdeal.Pay.pay_head (iblk1 V c 0 t) (iblk1 V c 1 t) (iblk1 V c 4 t) (iblk1 V c 2 t) (iblk1 V c 3 t) (iblk1 V c 5 t) (iblk1 V c 6 t) r).trans ?_
  unfold headArr
  have h5 : ∀ j : Fin 64, (iblk1 V c 5 t : S1x64.Idx → EReal) (ix2 (0 : Fin 1) j) = (V c main_arg5 : S1x64.Idx → EReal) (ix2 (0 : Fin 1) j) := fun j => by
    show (V c main_arg5 : S1x64.Idx → EReal) (((cfg1.win 5).blk t).view.emb (ix2 (0 : Fin 1) j)) = _
    congr 1; funext a; apply Fin.ext
    match a with
    | ⟨0, _⟩ => show win1_5.index t (0 : Fin 2) * 1 + 1 * 0 = 0; omega
    | ⟨1, _⟩ => show win1_5.index t (1 : Fin 2) * 64 + 1 * j.val = j.val; omega
  have h6 : (iblk1 V c 6 t : S1.Idx → EReal) (ix1 (0 : Fin 1)) = (V c main_arg6 : S1.Idx → EReal) (ix1 (0 : Fin 1)) := by
    show (V c main_arg6 : S1.Idx → EReal) (((cfg1.win 6).blk t).view.emb (ix1 (0 : Fin 1))) = _
    congr 1; funext a; apply Fin.ext
    match a with
    | ⟨0, _⟩ => show win1_6.index t (0 : Fin 1) * 1 + 1 * 0 = 0; omega
  refine congrArg₂ (· + ·) (Finset.sum_congr rfl fun j _ => ?_) h6
  exact congrArg₂ (· * ·) (hid_block V c t r j _ rfl) (h5 j)

/-- An index of the head output is in block `t` iff its row is among the block's 4000 rows. -/
theorem mem_blk1_8 (t : Fin cfg1.N) (i : S100000x1.Idx) :
    i ∈ ((cfg1.win 8).blk t).view.set ↔ ∀ a : Fin 2, win1_8.index t a * S4000x1.size a ≤ (i a).val ∧ (i a).val < win1_8.index t a * S4000x1.size a + S4000x1.size a := by
  show i ∈ ((View.whole main_v24_1).slice (win1_8.rect t)).set ↔ _
  rw [View.set_slice_whole, Rect.mem_set_unit]
  exact Iff.rfl

/-- Row `n` of the head output is written at block `n / 4000`. -/
theorem cover1_8 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  have hN : cfg1.N = 25 := N_1
  have ht : (i 0).val / 4000 < cfg1.N := by rw [hN]; omega
  obtain ⟨e00, e01, e10, e11, e20, e21, e30, e31, e40, e50, e51, e60, e70, e71, e80, e81⟩ := idx_facts1 ⟨(i 0).val / 4000, ht⟩
  refine ⟨⟨(i 0).val / 4000, ht⟩, flush1_8 _, ?_⟩
  rw [mem_blk1_8]
  intro a
  match a with
  | ⟨0, _⟩ =>
    show win1_8.index ⟨(i 0).val / 4000, ht⟩ (0 : Fin 2) * 4000 ≤ (i 0).val ∧ (i 0).val < win1_8.index ⟨(i 0).val / 4000, ht⟩ (0 : Fin 2) * 4000 + 4000
    rw [e80]; show (i 0).val / 4000 * 4000 ≤ (i 0).val ∧ (i 0).val < (i 0).val / 4000 * 4000 + 4000; omega
  | ⟨1, _⟩ =>
    show win1_8.index ⟨(i 0).val / 4000, ht⟩ (1 : Fin 2) * 1 ≤ (i 1).val ∧ (i 1).val < win1_8.index ⟨(i 0).val / 4000, ht⟩ (1 : Fin 2) * 1 + 1
    rw [e81]; omega

/-- After the second launch its second output holds the head array. -/
theorem final1_8 (c : Dev nD) : (dat1 V c).arrAt 8 cfg1.N
    = headArr (hidArr (V c main_v14) (V c main_v23) (V c main_arg0) (V c main_arg4) (V c main_arg3)) (V c main_arg5) (V c main_arg6) :=
  (dat1 V c).arrAt_eq_of_cover 8 _ (fun t _ => flushed1_8_eq V c t) cover1_8

end Cert.KernelIdeal.Hand

end
-- ==== Proof.LibRowGatherScatter.lean ====
/-
  Whole-row gathers and whole-row accumulating scatters of a rank-2 array.

  A table of N rows of D entries is read at E row numbers (a gather: result row e is the table's row at the e-th row
  number, read as a signed integer and clamped into [0, N - 1]), and E rows of D entries are added into a table of N
  rows at E row numbers (an accumulating scatter: table row i receives the sum of the update rows whose row number,
  read as a signed integer and not clamped, is i; a row number outside [0, N) contributes nothing).  Both are read
  here at one entry (row, column).  A last statement says that scattering ones into zeros counts: every entry of the
  result is a natural number.
-/
import Mathlib.Tactic
import Idealize.ShloMosaic.PureOps.Ideal
import Idealize.ShloMosaic.Lib.ValueIdx

noncomputable section

open scoped BigOperators

namespace Cert.Lib.Rows

open Idealize.ShloMosaic Idealize.ShloMosaic.ValueIdx

/-! ## A gather of whole rows -/

section Gather
variable {α : Type}

/-- The dimension numbers of a gather of whole rows: operand [N, D], start indices [E, 1] (one row number per result
    row, on the index vector's axis 1), result [E, D]; the row axis 0 is collapsed and indexed by the start index, the
    column axis 1 is the one offset axis, the slice is one whole row [1, D]. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of rows read at entry (e, k): the operand's entry in column k of the row whose number is the e-th
    start index, read as a signed integer and clamped into [0, N - 1]. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e k) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e k) idx 1 + (rowGatherDims N D E wf).batchCoord (ix2 e k) 1
      + (rowGatherDims N D E wf).offCoord (ix2 e k) 1 = _
    rw [GatherDims.batchCoord_eq_zero _ _ _ List.not_mem_nil]
    unfold GatherDims.start
    have h1 : (1 : Fin 2) ∉ ([0] : List (Fin 2)) := by decide
    rw [dif_neg (show (1 : Fin 2) ∉ (rowGatherDims N D E wf).startIndexMap from h1)]
    simp only [Nat.add_zero, Nat.zero_add]
    unfold GatherDims.offCoord
    rw [dif_pos (show (1 : Fin 2) ∈ (rowGatherDims N D E wf).sKept from
      (GatherDims.mem_sKept _ _).mpr ⟨h1, List.not_mem_nil⟩)]
    rfl

end Gather

/-! ## An accumulating scatter of whole rows -/

section Scatter

/-- The dimension numbers of a scatter of whole rows: operand [N, D], scatter indices [E, 1] (one row number per
    update row, on the index vector's axis 1), updates [E, D]; the operand's row axis 0 is the inserted window axis
    the scatter index names, the updates' column axis 1 is the one window axis and goes to the operand's columns. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update entry (e, k') starts at the e-th scatter index, read as a signed integer. -/
theorem rowScatter_start_row {N D E w : Nat} (wf : ScatterDims.WF ⟨2, ![N, D]⟩ ⟨2, ![E, 1]⟩ ⟨2, ![E, D]⟩ [1] [0] [0] 1) (idx : IVec ⟨2, ![E, 1]⟩ w) (e : Fin E) (k' : Fin D) :
    (rowScatterDims N D E wf).start (ix2 e k') idx (0 : Fin 2) = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e k')
      ⟨List.idxOf (0 : Fin 2) (rowScatterDims N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at 0. -/
theorem rowScatter_start_col {N D E w : Nat} (wf : ScatterDims.WF ⟨2, ![N, D]⟩ ⟨2, ![E, 1]⟩ ⟨2, ![E, D]⟩ [1] [0] [0] 1) (idx : IVec ⟨2, ![E, 1]⟩ w) (e : Fin E) (k' : Fin D) :
    (rowScatterDims N D E wf).start (ix2 e k') idx (1 : Fin 2) = 0 := by
  have h1 : (1 : Fin 2) ∉ ([0] : List (Fin 2)) := by decide
  unfold ScatterDims.start
  rw [dif_neg (show (1 : Fin 2) ∉ (rowScatterDims N D E wf).scatterDimsToOperandDims from h1)]

/-- On the row axis, an inserted axis, the window coordinate of an update entry is 0. -/
theorem rowScatter_window_row {N D E : Nat} (wf : ScatterDims.WF ⟨2, ![N, D]⟩ ⟨2, ![E, 1]⟩ ⟨2, ![E, D]⟩ [1] [0] [0] 1) (e : Fin E) (k' : Fin D) :
    (rowScatterDims N D E wf).window (ix2 e k') (0 : Fin 2) = 0 := by
  have h0 : (0 : Fin 2) ∉ (List.finRange 2).filter (fun a : Fin 2 => decide (a ∉ ([0] : List (Fin 2)))) := by decide
  unfold ScatterDims.window
  rw [dif_neg (show (0 : Fin 2) ∉ (rowScatterDims N D E wf).sKept from h0)]

/-- On the column axis the window coordinate of update entry (e, k') is its column k'. -/
theorem rowScatter_window_col {N D E : Nat} (wf : ScatterDims.WF ⟨2, ![N, D]⟩ ⟨2, ![E, 1]⟩ ⟨2, ![E, D]⟩ [1] [0] [0] 1) (e : Fin E) (k' : Fin D) :
    (rowScatterDims N D E wf).window (ix2 e k') (1 : Fin 2) = k'.val := by
  have h1 : (1 : Fin 2) ∈ (List.finRange 2).filter (fun a : Fin 2 => decide (a ∉ ([0] : List (Fin 2)))) := by decide
  unfold ScatterDims.window
  rw [dif_pos (show (1 : Fin 2) ∈ (rowScatterDims N D E wf).sKept from h1)]
  rfl

/-- WHERE AN UPDATE ENTRY LANDS: update entry (e, k') lands on operand entry (i, k) exactly when the e-th scatter
    index, read as a signed integer, is i and the columns agree; a scatter index outside [0, N) lands nowhere. -/
theorem rowScatter_resultIdx?_eq_some_iff {N D E w : Nat} (wf : ScatterDims.WF ⟨2, ![N, D]⟩ ⟨2, ![E, 1]⟩ ⟨2, ![E, D]⟩ [1] [0] [0] 1) (idx : IVec ⟨2, ![E, 1]⟩ w)
    (e : Fin E) (k' k : Fin D) (i : Fin N) :
    (rowScatterDims N D E wf).resultIdx? (ix2 e k') idx = some (ix2 i k)
      ↔ (idx (ix2 e (0 : Fin 1))).toInt = (i.val : ℤ) ∧ k' = k := by
  have hs0 := rowScatter_start_row wf idx e k'
  have hs1 := rowScatter_start_col wf idx e k'
  have hw0 := rowScatter_window_row wf e k'
  have hw1 := rowScatter_window_col wf e k'
  have hi : i.val < N := i.isLt
  have hk' : k'.val < D := k'.isLt
  unfold ScatterDims.resultIdx?
  split
  · rename_i h
    rw [Option.some.injEq]
    constructor
    · intro hf
      have h0 : ((rowScatterDims N D E wf).start (ix2 e k') idx (0 : Fin 2)
          + ((rowScatterDims N D E wf).window (ix2 e k') (0 : Fin 2) : ℤ)).toNat = i.val :=
        congrArg (fun f => (f (0 : Fin 2)).val) hf
      have h1 : ((rowScatterDims N D E wf).start (ix2 e k') idx (1 : Fin 2)
          + ((rowScatterDims N D E wf).window (ix2 e k') (1 : Fin 2) : ℤ)).toNat = k.val :=
        congrArg (fun f => (f (1 : Fin 2)).val) hf
      have hr := (h (0 : Fin 2)).1
      rw [hs0, hw0] at h0 hr
      rw [hs1, hw1] at h1
      refine ⟨by omega, Fin.ext (by omega)⟩
    · rintro ⟨hz, rfl⟩
      funext a; refine Fin.ext ?_
      match a with
      | ⟨0, _⟩ =>
        show ((rowScatterDims N D E wf).start (ix2 e k') idx (0 : Fin 2)
          + ((rowScatterDims N D E wf).window (ix2 e k') (0 : Fin 2) : ℤ)).toNat = i.val
        rw [hs0, hw0]; omega
      | ⟨1, _⟩ =>
        show ((rowScatterDims N D E wf).start (ix2 e k') idx (1 : Fin 2)
          + ((rowScatterDims N D E wf).window (ix2 e k') (1 : Fin 2) : ℤ)).toNat = k'.val
        rw [hs1, hw1]; omega
  · rename_i h
    constructor
    · intro hf; exact absurd hf (by simp)
    · rintro ⟨hz, rfl⟩
      exfalso; apply h
      intro a
      match a with
      | ⟨0, _⟩ =>
        show 0 ≤ (rowScatterDims N D E wf).start (ix2 e k') idx (0 : Fin 2)
            + ((rowScatterDims N D E wf).window (ix2 e k') (0 : Fin 2) : ℤ)
          ∧ (rowScatterDims N D E wf).start (ix2 e k') idx (0 : Fin 2)
            + ((rowScatterDims N D E wf).window (ix2 e k') (0 : Fin 2) : ℤ) < (N : ℤ)
        rw [hs0, hw0]; omega
      | ⟨1, _⟩ =>
        show 0 ≤ (rowScatterDims N D E wf).start (ix2 e k') idx (1 : Fin 2)
            + ((rowScatterDims N D E wf).window (ix2 e k') (1 : Fin 2) : ℤ)
          ∧ (rowScatterDims N D E wf).start (ix2 e k') idx (1 : Fin 2)
            + ((rowScatterDims N D E wf).window (ix2 e k') (1 : Fin 2) : ℤ) < (D : ℤ)
        rw [hs1, hw1]; omega

/-- THE ACCUMULATING SCATTER OF ROWS READ AT ENTRY (i, k): the operand's entry plus the sum, over the update rows e
    whose scatter index read as a signed integer is i, of the update's entry in column k. -/
theorem scatterAdd_rows_apply {N D E w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (i : Fin N) (k : Fin D) :
    Ideal.hostScatterAdd (rowScatterDims N D E wf) x idx upd (ix2 i k)
      = x (ix2 i k) + ∑ e ∈ Finset.univ.filter (fun e : Fin E => (idx (ix2 e (0 : Fin 1))).toInt = (i.val : ℤ)),
          upd (ix2 e k) := by
  unfold Ideal.hostScatterAdd
  congr 1
  conv_lhs => rw [Finset.sum_filter, sum_idx2]
  conv_rhs => rw [Finset.sum_filter]
  refine Finset.sum_congr rfl fun e _ => ?_
  by_cases hz : (idx (ix2 e (0 : Fin 1))).toInt = (i.val : ℤ)
  · rw [if_pos hz]
    have hb : ∀ b : Fin D,
        (if (rowScatterDims N D E wf).resultIdx? (ix2 e b) idx = some (ix2 i k) then upd (ix2 e b) else 0)
          = if b = k then upd (ix2 e b) else 0 := by
      intro b
      by_cases hbk : b = k
      · rw [if_pos hbk, if_pos ((rowScatter_resultIdx?_eq_some_iff wf idx e b k i).mpr ⟨hz, hbk⟩)]
      · rw [if_neg hbk, if_neg (fun h => hbk ((rowScatter_resultIdx?_eq_some_iff wf idx e b k i).mp h).2)]
    rw [Finset.sum_congr rfl (fun b _ => hb b), Finset.sum_ite_eq', if_pos (Finset.mem_univ _)]
  · rw [if_neg hz]
    exact Finset.sum_eq_zero fun b _ =>
      if_neg (fun h => hz ((rowScatter_resultIdx?_eq_some_iff wf idx e b k i).mp h).1)

end Scatter

/-! ## Scattering ones into zeros counts -/

/-- For any accumulating scatter, of any shapes and dimension numbers: ones scattered into zeros give, at every entry,
    the number of update entries that land there, a natural number. -/
theorem scatterAdd_count {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  have h : ∀ S : Finset su.Idx, (0 : EReal) + ∑ _j ∈ S, (1 : EReal) = ((S.card : ℝ) : EReal) := by
    intro S
    rw [Finset.sum_const, nsmul_one, zero_add]
    rfl
  exact ⟨_, h _⟩

end Cert.Lib.Rows

end
-- ==== Proof.KernelHost.lean ====
/-
  What the host operations of the idealized kernel program leave in the buffers its two launches read.

  Before the first launch the edge-index array is cut into its two rows, the sources and the destinations.  Between
  the launches the source row is wrapped (a negative index has the table length added) and made a column; the rows
  of the first launch's output named by that column are gathered, one per edge, and summed into the row of each
  edge's destination, from zeros.  A second accumulation, of ones along the same destinations, counts each node's
  in-edges; the count is raised to at least one and the reciprocal of the result is made a column.  No host
  operation writes an argument, so the launches read the arguments as they were at the start.
-/
import proofs.«165032_j76149770158552_2_alg».proof.Proof.Gen.KernelIdeal.Frame
import proofs.«165032_j76149770158552_2_alg».proof.Proof.Spec
import Idealize.ShloMosaic.Lib.StableHlo.Run
import Idealize.ShloMosaic.Lib.ValueIdx
import Idealize.ShloMosaic.Lib.Pipeline.Value
import Idealize.ShloMosaic.Lib.IdealHost
import proofs.«165032_j76149770158552_2_alg».proof.Proof.LibRowGatherScatter

set_option maxRecDepth 16384

noncomputable section

namespace Cert.KernelIdeal.HostSide

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg)

/-! ## The three index terms -/

/-- The source row of the edge-index array as a column, a negative entry wrapped by the table length. -/
abbrev sidxK (x1 : IVec S2x1600000 32) : IVec S1600000x1 32 :=
  broadcastInDim S1600000x1 ![0] bcast_S1600000_S1600000x1_0
    (select
      (cmpi .slt
        (shapeCast _ (extractStridedSlice S1x1600000 ![0, 0] x1 slices_S2x1600000_S1x1600000_0_0) shapeCasts_S1x1600000_S1600000)
        (broadcastInDim S1600000 ![] bcast_S_S1600000 (constantI S_ 32 0#32)))
      (addi
        (shapeCast _ (extractStridedSlice S1x1600000 ![0, 0] x1 slices_S2x1600000_S1x1600000_0_0) shapeCasts_S1x1600000_S1600000)
        (broadcastInDim S1600000 ![] bcast_S_S1600000 (constantI S_ 32 100000#32)))
      (shapeCast _ (extractStridedSlice S1x1600000 ![0, 0] x1 slices_S2x1600000_S1x1600000_0_0) shapeCasts_S1x1600000_S1600000))

/-- The destination row of the edge-index array as a column. -/
abbrev didxK (x1 : IVec S2x1600000 32) : IVec S1600000x1 32 :=
  broadcastInDim S1600000x1 ![0] bcast_S1600000_S1600000x1_0
    (shapeCast _ (extractStridedSlice S1x1600000 ![1, 0] x1 slices_S2x1600000_S1x1600000_1_0) shapeCasts_S1x1600000_S1600000)

/-- Node `i`'s in-edge count, a one accumulated from zero for every edge that ends there, raised to at least one. -/
abbrev cntK (x1 : IVec S2x1600000 32) : Fin 100000 → EReal := fun i =>
  (maximumf
    (Host.scatterAdd (F := Ideal) scatter_S100000_S1600000x1_S1600000_n_0_0_1
      (broadcastInDim S100000 ![] bcast_S_S100000 (constant S_ .f32 0x00000000#32))
      (didxK x1)
      (broadcastInDim S1600000 ![] bcast_S_S1600000 (constant S_ .f32 0x3F800000#32)))
    (broadcastInDim S100000 ![] bcast_S_S100000 (constant S_ .f32 0x3F800000#32))) (ix1 i)

/-! ## No host operation writes an argument -/

/-- A reference none of the first stretch's four operations writes keeps its contents across it. -/
local macro "keeps0" : tactic =>
  `(tactic| (refine StableHlo.after_of_forall_not_mem _ _ (List.forall_iff_forall_mem.mp ?_)
             simp only [hostOps0, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The same for the second stretch's twenty-six operations. -/
local macro "keeps1" : tactic =>
  `(tactic| (refine StableHlo.after_of_forall_not_mem _ _ (List.forall_iff_forall_mem.mp ?_)
             simp only [hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (c : Dev nD)

theorem W1_arg0 : W1 m ρ c (Proc.devRef .tc main_arg0) = m ((c : Thread nD τ).loc main_arg0) :=
  calc W1 m ρ c (Proc.devRef .tc main_arg0)
    _ = W0 m ρ c (Proc.devRef .tc main_arg0) := by keeps0
    _ = m ((c : Thread nD τ).loc main_arg0) := rfl

/-- The first launch reads the first argument as launched. -/
theorem entry0_arg0 : V1 m ρ c main_arg0 = m ((c : Thread nD τ).loc main_arg0) := W1_arg0 m ρ c

theorem W1_arg2 : W1 m ρ c (Proc.devRef .tc main_arg2) = m ((c : Thread nD τ).loc main_arg2) :=
  calc W1 m ρ c (Proc.devRef .tc main_arg2)
    _ = W0 m ρ c (Proc.devRef .tc main_arg2) := by keeps0
    _ = m ((c : Thread nD τ).loc main_arg2) := rfl

/-- The first launch reads the third argument as launched. -/
theorem entry0_arg2 : V1 m ρ c main_arg2 = m ((c : Thread nD τ).loc main_arg2) := W1_arg2 m ρ c

theorem W1_arg3 : W1 m ρ c (Proc.devRef .tc main_arg3) = m ((c : Thread nD τ).loc main_arg3) :=
  calc W1 m ρ c (Proc.devRef .tc main_arg3)
    _ = W0 m ρ c (Proc.devRef .tc main_arg3) := by keeps0
    _ = m ((c : Thread nD τ).loc main_arg3) := rfl

theorem W1_arg4 : W1 m ρ c (Proc.devRef .tc main_arg4) = m ((c : Thread nD τ).loc main_arg4) :=
  calc W1 m ρ c (Proc.devRef .tc main_arg4)
    _ = W0 m ρ c (Proc.devRef .tc main_arg4) := by keeps0
    _ = m ((c : Thread nD τ).loc main_arg4) := rfl

theorem W1_arg5 : W1 m ρ c (Proc.devRef .tc main_arg5) = m ((c : Thread nD τ).loc main_arg5) :=
  calc W1 m ρ c (Proc.devRef .tc main_arg5)
    _ = W0 m ρ c (Proc.devRef .tc main_arg5) := by keeps0
    _ = m ((c : Thread nD τ).loc main_arg5) := rfl

theorem W1_arg6 : W1 m ρ c (Proc.devRef .tc main_arg6) = m ((c : Thread nD τ).loc main_arg6) :=
  calc W1 m ρ c (Proc.devRef .tc main_arg6)
    _ = W0 m ρ c (Proc.devRef .tc main_arg6) := by keeps0
    _ = m ((c : Thread nD τ).loc main_arg6) := rfl

/-- The second launch reads the first argument as launched: the first launch reads it through an input window, which
    leaves the array as entered. -/
theorem entry1_arg0 : V3 m ρ c main_arg0 = m ((c : Thread nD τ).loc main_arg0) :=
  calc W3 m ρ c (Proc.devRef .tc main_arg0)
    _ = W2 m ρ c (Proc.devRef .tc main_arg0) := by keeps1
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := W1_arg0 m ρ c

/-- The second launch reads argument 3 as launched: the first launch has no window on it. -/
theorem entry1_arg3 : V3 m ρ c main_arg3 = m ((c : Thread nD τ).loc main_arg3) :=
  calc W3 m ρ c (Proc.devRef .tc main_arg3)
    _ = W2 m ρ c (Proc.devRef .tc main_arg3) := by keeps1
    _ = W1 m ρ c (Proc.devRef .tc main_arg3) := W2_of_ne m ρ c main_arg3 (by decide)
    _ = m ((c : Thread nD τ).loc main_arg3) := W1_arg3 m ρ c

/-- The second launch reads argument 4 as launched: the first launch has no window on it. -/
theorem entry1_arg4 : V3 m ρ c main_arg4 = m ((c : Thread nD τ).loc main_arg4) :=
  calc W3 m ρ c (Proc.devRef .tc main_arg4)
    _ = W2 m ρ c (Proc.devRef .tc main_arg4) := by keeps1
    _ = W1 m ρ c (Proc.devRef .tc main_arg4) := W2_of_ne m ρ c main_arg4 (by decide)
    _ = m ((c : Thread nD τ).loc main_arg4) := W1_arg4 m ρ c

/-- The second launch reads argument 5 as launched: the first launch has no window on it. -/
theorem entry1_arg5 : V3 m ρ c main_arg5 = m ((c : Thread nD τ).loc main_arg5) :=
  calc W3 m ρ c (Proc.devRef .tc main_arg5)
    _ = W2 m ρ c (Proc.devRef .tc main_arg5) := by keeps1
    _ = W1 m ρ c (Proc.devRef .tc main_arg5) := W2_of_ne m ρ c main_arg5 (by decide)
    _ = m ((c : Thread nD τ).loc main_arg5) := W1_arg5 m ρ c

/-- The second launch reads argument 6 as launched: the first launch has no window on it. -/
theorem entry1_arg6 : V3 m ρ c main_arg6 = m ((c : Thread nD τ).loc main_arg6) :=
  calc W3 m ρ c (Proc.devRef .tc main_arg6)
    _ = W2 m ρ c (Proc.devRef .tc main_arg6) := by keeps1
    _ = W1 m ρ c (Proc.devRef .tc main_arg6) := W2_of_ne m ρ c main_arg6 (by decide)
    _ = m ((c : Thread nD τ).loc main_arg6) := W1_arg6 m ρ c

/-! ## What the launches' entries hold at the buffers the host operations write -/

/-- Across the first launch the source row, written before it and no array of its, is unchanged: the row of the
    edge-index array cut out and flattened. -/
theorem W2_v1 : (W2 m ρ c (Proc.devRef .tc main_v1) : IVec S1600000 32)
    = shapeCast _ (extractStridedSlice S1x1600000 ![0, 0] (m ((c : Thread nD τ).loc main_arg1)) slices_S2x1600000_S1x1600000_0_0) shapeCasts_S1x1600000_S1600000 := by
  refine (W2_of_ne m ρ c main_v1 (by decide)).trans ?_
  show StableHlo.after hostOps0 (W0 m ρ c) (Proc.devRef .tc main_v1) = _
  after_results
  rfl

/-- The destination row likewise. -/
theorem W2_v3 : (W2 m ρ c (Proc.devRef .tc main_v3) : IVec S1600000 32)
    = shapeCast _ (extractStridedSlice S1x1600000 ![1, 0] (m ((c : Thread nD τ).loc main_arg1)) slices_S2x1600000_S1x1600000_1_0) shapeCasts_S1x1600000_S1600000 := by
  refine (W2_of_ne m ρ c main_v3 (by decide)).trans ?_
  show StableHlo.after hostOps0 (W0 m ρ c) (Proc.devRef .tc main_v3) = _
  after_results
  rfl

/-- At the first launch's exit its output array holds what the launch's write-backs leave. -/
theorem W2_v4 : W2 m ρ c (Proc.devRef .tc main_v4) = (dat0 (V1 m ρ) c).arrAt 2 cfg0.N := W2_arr m ρ c 2

/-- The second launch's first operand, as the host operations compute it. -/
theorem V3_v14 : (V3 m ρ c main_v14 : S100000x64.Idx → EReal)
    = Host.scatterAdd (F := Ideal) scatter_S100000x64_S1600000x1_S1600000x64_1_0_0_1
        (broadcastInDim S100000x64 ![] bcast_S_S100000x64 (constant (F := Ideal) S_ .f32 0x00000000#32))
        (didxK (m ((c : Thread nD τ).loc main_arg1)))
        (Host.gather gather_S100000x64_S1600000x1_S1600000x64_1_0_n_n_0_1_164
          ((dat0 (V1 m ρ) c).arrAt 2 cfg0.N : S100000x64.Idx → EReal)
          (sidxK (m ((c : Thread nD τ).loc main_arg1)))) := by
  show StableHlo.after hostOps1 (W2 m ρ c) (Proc.devRef .tc main_v14) = _
  after_results
  rw [W2_v1 m ρ c, W2_v3 m ρ c, W2_v4 m ρ c]

/-- The second launch's second operand, as the host operations compute it. -/
theorem V3_v23 : (V3 m ρ c main_v23 : S100000x1.Idx → EReal)
    = broadcastInDim S100000x1 ![0] bcast_S100000_S100000x1_0
        (Host.divf (F := Ideal)
          (broadcastInDim S100000 ![] bcast_S_S100000 (constant (F := Ideal) S_ .f32 0x3F800000#32))
          (maximumf
            (Host.scatterAdd (F := Ideal) scatter_S100000_S1600000x1_S1600000_n_0_0_1
              (broadcastInDim S100000 ![] bcast_S_S100000 (constant S_ .f32 0x00000000#32))
              (didxK (m ((c : Thread nD τ).loc main_arg1)))
              (broadcastInDim S1600000 ![] bcast_S_S1600000 (constant S_ .f32 0x3F800000#32)))
            (broadcastInDim S100000 ![] bcast_S_S100000 (constant S_ .f32 0x3F800000#32)))) := by
  show StableHlo.after hostOps1 (W2 m ρ c) (Proc.devRef .tc main_v23) = _
  after_results
  rw [W2_v3 m ρ c]

/-! ## The two operands of the second launch, entry by entry -/

/-- The accumulating scatter of rows along a column of row indices, for any dimension record equal to the row
    record: entry `(i, k)` is the old entry plus the updates of the edges whose index is `i`. -/
theorem hostScatterAdd_rows {N D E w : Nat}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = Cert.Lib.Rows.rowScatterDims N D E wf)
    (x : (⟨2, ![N, D]⟩ : Shape).Idx → EReal) (idx : IVec ⟨2, ![E, 1]⟩ w)
    (upd : (⟨2, ![E, D]⟩ : Shape).Idx → EReal) (i : Fin N) (k : Fin D) :
    Host.scatterAdd (F := Ideal) (φ := .f32) d x idx upd (ix2 i k)
      = x (ix2 i k) + ∑ e ∈ Finset.univ.filter (fun e : Fin E => (idx (ix2 e (0 : Fin 1))).toInt = (i.val : ℤ)), upd (ix2 e k) := by
  subst hd
  exact Cert.Lib.Rows.scatterAdd_rows_apply wf x idx upd i k

/-- At the program's record: the old entry plus the updates of the edges that end at `i`. -/
theorem scatterAdd_rows (x : S100000x64.Idx → EReal) (didx : IVec S1600000x1 32) (upd : S1600000x64.Idx → EReal)
    (i : Fin 100000) (j : Fin 64) :
    Host.scatterAdd (F := Ideal) (φ := .f32) scatter_S100000x64_S1600000x1_S1600000x64_1_0_0_1 x didx upd (ix2 i j)
      = x (ix2 i j) + ∑ e ∈ Cert.Sage.inEdges didx i, upd (ix2 e j) := by
  unfold Cert.Sage.inEdges
  exact hostScatterAdd_rows (N := 100000) (D := 64) (E := 1600000)
    Cert.KernelIdeal.Gen.scatter_S100000x64_S1600000x1_S1600000x64_1_0_0_1_wf
    scatter_S100000x64_S1600000x1_S1600000x64_1_0_0_1 rfl x didx upd i j

/-- The gather of rows at a column of start indices: row `e` is the table's row at the start index read signed and
    clamped into the table. -/
theorem gather_rows (tbl : S100000x64.Idx → EReal) (sidx : IVec S1600000x1 32) (e : Fin 1600000) (j : Fin 64) :
    Host.gather gather_S100000x64_S1600000x1_S1600000x64_1_0_n_n_0_1_164 tbl sidx (ix2 e j)
      = tbl (ix2 (Cert.Sage.srcRow sidx e) j) := by
  unfold Cert.Sage.srcRow
  exact Cert.Lib.Rows.gather_rows_apply (N := 100000) (D := 64) (E := 1600000) (by decide) _ tbl sidx e j

/-- Rows gathered at a column of start indices and accumulated from zeros along a column of destinations: entry
    `(i, j)` is the sum, over the edges that end at `i`, of the table at the edge's source row. -/
theorem scatter_gather_rows (tbl : S100000x64.Idx → EReal) (sidx didx : IVec S1600000x1 32) (i : Fin 100000) (j : Fin 64) :
    Host.scatterAdd (F := Ideal) (φ := .f32) scatter_S100000x64_S1600000x1_S1600000x64_1_0_0_1
        (broadcastInDim S100000x64 ![] bcast_S_S100000x64 (constant (F := Ideal) S_ .f32 0x00000000#32)) didx
        (Host.gather gather_S100000x64_S1600000x1_S1600000x64_1_0_n_n_0_1_164 tbl sidx) (ix2 i j)
      = ∑ e ∈ Cert.Sage.inEdges didx i, tbl (ix2 (Cert.Sage.srcRow sidx e) j) := by
  rw [scatterAdd_rows, broadcastInDim_scalar_apply, constant_apply, Ideal.ofBits_zero_f32, zero_add]
  exact Finset.sum_congr rfl fun e _ => gather_rows tbl sidx e j

/-- The second launch's first operand at node `i`, column `j`: the sum, over the edges that end at `i`, of the
    first launch's output at the edge's source row. -/
theorem entry_agg (i : Fin 100000) (j : Fin 64) :
    (V3 m ρ c main_v14 : S100000x64.Idx → EReal) (ix2 i j)
      = (∑ e ∈ Cert.Sage.inEdges (didxK (m ((c : Thread nD τ).loc main_arg1))) i,
          ((dat0 (V1 m ρ) c).arrAt 2 cfg0.N : S100000x64.Idx → EReal)
            (ix2 (Cert.Sage.srcRow (sidxK (m ((c : Thread nD τ).loc main_arg1))) e) j) : EReal) := by
  rw [V3_v14 m ρ c]
  exact scatter_gather_rows ((dat0 (V1 m ρ) c).arrAt 2 cfg0.N) (sidxK (m ((c : Thread nD τ).loc main_arg1)))
    (didxK (m ((c : Thread nD τ).loc main_arg1))) i j

/-- A vector made a column, read at `(i, 0)`, is the vector at `i`. -/
theorem column_apply {α : Type} (v : S100000.Idx → α) (i : Fin 100000) :
    broadcastInDim S100000x1 ![0] bcast_S100000_S100000x1_0 v (ix2 i (0 : Fin 1)) = v (ix1 i) :=
  broadcastInDim_apply ![0] bcast_S100000_S100000x1_0 v (ix2 i (0 : Fin 1)) (ix1 i) (fun a => by
    obtain rfl : a = 0 := Subsingleton.elim _ _
    rfl)

/-- The second launch's second operand at node `i`: the reciprocal of the node's in-edge count raised to at least one. -/
theorem entry_inv (i : Fin 100000) :
    (V3 m ρ c main_v23 : S100000x1.Idx → EReal) (ix2 i (0 : Fin 1))
      = Ideal.div 1 (cntK (m ((c : Thread nD τ).loc main_arg1)) i) := by
  rw [V3_v23 m ρ c, column_apply, hostDivf_apply, broadcastInDim_scalar_apply, constant_apply, Ideal.ofBits_one_f32]

end Cert.KernelIdeal.HostSide

end
-- ==== Proof.KernelValue.lean ====
/-
  The idealized two-launch program's results as the specification's functions.

  Between the launches the host gathers, for every edge, the projected row of its source node, adds the gathered rows
  into the rows of their destinations, counts the edges per destination, and takes the reciprocal of the count (at
  least one).  The second launch multiplies the aggregate by that reciprocal, adds the bias and the node's own projected
  features, rectifies, and applies the head.  Reading every array the second launch finds at entry back to the
  program's arguments, its first output is `hidProj` of the arguments and its second the head of that.
-/
import proofs.«165032_j76149770158552_2_alg».proof.Proof.KernelRun
import proofs.«165032_j76149770158552_2_alg».proof.Proof.KernelProj
import proofs.«165032_j76149770158552_2_alg».proof.Proof.KernelDense
import proofs.«165032_j76149770158552_2_alg».proof.Proof.KernelHost

set_option maxRecDepth 16384

noncomputable section

namespace Cert.KernelIdeal.Hand

open Cert.KernelIdeal Cert.KernelIdeal.Gen Cert.KernelIdeal.HostSide
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The hidden values of the specification, projecting before aggregating, at the program's arguments on core `c`. -/
def hidK (c : Dev nD) (i : Fin 100000) (j : Fin 64) : EReal :=
  Cert.Sage.hidProj (m ((c : Thread nD τ).loc main_arg0)) (sidxK (m ((c : Thread nD τ).loc main_arg1))) (didxK (m ((c : Thread nD τ).loc main_arg1)))
    (cntK (m ((c : Thread nD τ).loc main_arg1))) (m ((c : Thread nD τ).loc main_arg2)) (m ((c : Thread nD τ).loc main_arg4)) (m ((c : Thread nD τ).loc main_arg3)) i j

/-- The first result array. -/
def hidRes (c : Dev nD) : S100000x64.Idx → EReal := fun i => hidK m c (i 0) (i 1)

/-- The second result array. -/
def headRes (c : Dev nD) : S100000x1.Idx → EReal := fun i =>
  Cert.Sage.head (m ((c : Thread nD τ).loc main_arg5)) (m ((c : Thread nD τ).loc main_arg6)) (hidK m c) (i 0)

/-- The hidden array at row `n`, column `j`. -/
theorem hidArr_apply (agg : S100000x64.Idx → EReal) (inv : S100000x1.Idx → EReal) (x : S100000x128.Idx → EReal)
    (Wr : S64x128.Idx → EReal) (bl : S64.Idx → EReal) (n : Fin 100000) (j : Fin 64) :
    hidArr agg inv x Wr bl (ix2 n j)
      = Cert.Sage.relu ((agg (ix2 n j) * inv (ix2 n (0 : Fin 1)) + bl (ix1 j)) + ∑ k : Fin 128, Cert.Sage.relu (x (ix2 n k)) * Wr (ix2 j k)) := rfl

/-- The hidden array of the arrays the second launch finds at entry is the specification's hidden array of the
    program's arguments: the aggregate is the sum over in-edges of projected source rows, the column operand the
    reciprocal of the count, the other three operands arguments as launched. -/
theorem hid_entry (c : Dev nD) :
    hidArr (V3 m ρ c main_v14) (V3 m ρ c main_v23) (V3 m ρ c main_arg0) (V3 m ρ c main_arg4) (V3 m ρ c main_arg3) = hidRes m c := by
  funext i
  obtain ⟨n, j, rfl⟩ : ∃ (n : Fin 100000) (j : Fin 64), i = ix2 n j := ⟨i 0, i 1, eq_ix2 i⟩
  refine (hidArr_apply _ _ _ _ _ n j).trans ?_
  rw [entry_agg m ρ c n j, entry_inv m ρ c n, entry1_arg0 m ρ c, entry1_arg4 m ρ c, entry1_arg3 m ρ c,
    final0 (V1 m ρ) c, entry0_arg0 m ρ c, entry0_arg2 m ρ c]
  rfl

/-- The head array of the arrays the second launch finds at entry is the specification's head. -/
theorem head_entry (c : Dev nD) :
    headArr (hidArr (V3 m ρ c main_v14) (V3 m ρ c main_v23) (V3 m ρ c main_arg0) (V3 m ρ c main_arg4) (V3 m ρ c main_arg3)) (V3 m ρ c main_arg5) (V3 m ρ c main_arg6)
      = headRes m c := by
  rw [hid_entry m ρ c, entry1_arg5 m ρ c, entry1_arg6 m ρ c]
  rfl

/-- THE RUN, READ: every weakly fair execution terminates, the two results at the specification's arrays of the
    arguments, the arguments as launched. -/
theorem run_value : θ_run defs (onTc (τ := τ) (main (F := Ideal))) ⟨m, fun _ => 0, ρ⟩ (fun r => ∀ c : Dev nD,
      r.2.mem ((c.tc : Thread nD τ).loc main_v24_0) = hidRes m c
      ∧ r.2.mem ((c.tc : Thread nD τ).loc main_v24_1) = headRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c).1.trans ((final1_7 (V3 m ρ) c).trans (hid_entry m ρ c)),
       (h c).2.1.trans ((final1_8 (V3 m ρ) c).trans (head_entry m ρ c)),
       (h c).2.2⟩)
    (run_exit m ρ)

end Cert.KernelIdeal.Hand

end
-- ==== Proof.RefValue.lean ====
/-
  The reference program's two results, read at an index, are the specification's functions.

  The reference rectifies the features, gathers a source row per edge (the start index read signed and clamped into
  the table), adds the gathered rows into their destination rows starting from zero, divides each row by
  `max (number of in-edges) 1`, projects by `Wl`, adds the bias and the node's own rectified features projected by
  `Wr`, rectifies, and applies the one-row head.  Read at `(i, j)` the hidden layer is `Cert.Sage.hidFeat`; read at
  `(i, 0)` the output is `Cert.Sage.head` over it.  The divisor is a nonzero real: the count is the accumulating
  scatter of the constant one into the constant zero, a natural number, and its maximum with one is at least one.
-/
import proofs.«165032_j76149770158552_2_alg».proof.Proof.Gen.ReferenceIdeal.Read
import proofs.«165032_j76149770158552_2_alg».proof.Proof.Spec
import proofs.«165032_j76149770158552_2_alg».proof.Proof.LibRowGatherScatter
import Idealize.ShloMosaic.Lib.ValueIdx
import Idealize.ShloMosaic.Lib.Pipeline.Value
import Idealize.ShloMosaic.PureOps.Ideal.Laws
import Idealize.ShloMosaic.Lib.IdealHost

noncomputable section

namespace Cert.Sage.Ref

open Cert.ReferenceIdeal Cert.ReferenceIdeal.Read Cert.ReferenceIdeal.Gen Idealize.ShloMosaic Idealize.ShloMosaic.ValueIdx
open Cert.Lib.Rows
open scoped BigOperators

/-- The source start indices as a column `[1600000, 1]`. -/
abbrev sidxR (x1 : (⟨S2x1600000, .i32⟩ : BufTy).Contents (Elt Ideal)) := Read.val_main_v10 (F := Ideal) x1
/-- The destinations as a column `[1600000, 1]`. -/
abbrev didxR (x1 : (⟨S2x1600000, .i32⟩ : BufTy).Contents (Elt Ideal)) := Read.val_main_v13 (F := Ideal) x1
/-- The divisor of node `i`: `max (number of in-edges) 1`. -/
abbrev cntR (x1 : (⟨S2x1600000, .i32⟩ : BufTy).Contents (Elt Ideal)) : Fin 100000 → EReal :=
  fun i => Read.val_main_v20 (F := Ideal) x1 (ix1 i)

variable (x0 : (⟨S100000x128, .f32⟩ : BufTy).Contents (Elt Ideal))
  (x1 : (⟨S2x1600000, .i32⟩ : BufTy).Contents (Elt Ideal))
  (x2 : (⟨S64x128, .f32⟩ : BufTy).Contents (Elt Ideal))
  (x3 : (⟨S64, .f32⟩ : BufTy).Contents (Elt Ideal))
  (x4 : (⟨S64x128, .f32⟩ : BufTy).Contents (Elt Ideal))
  (x5 : (⟨S1x64, .f32⟩ : BufTy).Contents (Elt Ideal))
  (x6 : (⟨S1, .f32⟩ : BufTy).Contents (Elt Ideal))

/-- The rectified features at `(n, k)`. -/
theorem v4_ix (n : Fin 100000) (k : Fin 128) :
    val_main_v4 (F := Ideal) x0 (ix2 n k) = Cert.Sage.relu (x0 (ix2 n k)) := by
  rw [val_main_v4_apply, val_main_call0_v0_apply, val_main_call0_cst_apply]
  simp only [Ideal.maximumf_def, Ideal.ofBits_def, Ideal.ofBits_zero_f32]
  rfl

/-- The gathered row of edge `e` at column `k`: the rectified feature of its clamped source row. -/
theorem v11_ix (e : Fin 1600000) (k : Fin 128) :
    val_main_v11 (F := Ideal) x0 x1 (ix2 e k)
      = Cert.Sage.relu (x0 (ix2 (Cert.Sage.srcRow (sidxR x1) e) k)) := by
  unfold val_main_v11
  refine (gather_rows_apply (N := 100000) (D := 128) (E := 1600000) (by decide) _ (val_main_v4 (F := Ideal) x0) (val_main_v10 (F := Ideal) x1) e k).trans ?_
  rw [v4_ix]
  rfl

/-- The accumulating row scatter at the ideal instance, read at `(i, k)`, for any record equal to the row-scatter
    record: the operand's element plus the sum of the updates of the edges whose index is `i`. -/
theorem hostScatterAdd_rows_apply {N D E w : Nat}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatterDims N D E wf)
    (x : (⟨2, ![N, D]⟩ : Shape).Idx → EReal) (idx : IVec ⟨2, ![E, 1]⟩ w)
    (upd : (⟨2, ![E, D]⟩ : Shape).Idx → EReal) (i : Fin N) (k : Fin D) :
    Host.scatterAdd (F := Ideal) (φ := .f32) d x idx upd (ix2 i k)
      = x (ix2 i k) + ∑ e ∈ Finset.univ.filter (fun e : Fin E => (idx (ix2 e (0 : Fin 1))).toInt = (i.val : ℤ)), upd (ix2 e k) := by
  subst hd
  exact scatterAdd_rows_apply wf x idx upd i k

/-- The accumulating scatter of the constant one into the constant zero, at the ideal instance: every element is a
    natural number (the number of updates that land on it). -/
theorem hostScatterAdd_count {s si su : Shape} (d : ScatterDims s si su) {w : Nat}
    (x : s.Idx → EReal) (idx : IVec si w) (upd : su.Idx → EReal)
    (hx : x = fun _ => (0 : EReal)) (hu : upd = fun _ => (1 : EReal)) (i : s.Idx) :
    ∃ n : ℕ, Host.scatterAdd (F := Ideal) (φ := .f32) d x idx upd i = ((n : ℝ) : EReal) := by
  subst hx hu
  exact scatterAdd_count d idx i

/-- The rows added into destination `i`, column `k`: the sum over the in-edges of `i` (the operand is zero). -/
theorem v14_ix (i : Fin 100000) (k : Fin 128) :
    val_main_v14 (F := Ideal) x0 x1 (ix2 i k)
      = Cert.Sage.aggFeat x0 (sidxR x1) (didxR x1) i k := by
  rw [val_main_v14]
  refine (hostScatterAdd_rows_apply (N := 100000) (D := 128) (E := 1600000) scatter_S100000x128_S1600000x1_S1600000x128_1_0_0_1_wf scatter_S100000x128_S1600000x1_S1600000x128_1_0_0_1 rfl (val_main_v12 (F := Ideal)) (val_main_v13 (F := Ideal) x1) (val_main_v11 (F := Ideal) x0 x1) i k).trans ?_
  rw [val_main_v12_apply, val_main_cst_apply, Ideal.ofBits_def, Ideal.ofBits_zero_f32, zero_add]
  unfold Cert.Sage.aggFeat Cert.Sage.inEdges
  exact Finset.sum_congr rfl fun e _ => v11_ix x0 x1 e k

/-- The divisor broadcast along the feature axis. -/
theorem v22_ix (i : Fin 100000) (k : Fin 128) :
    val_main_v22 (F := Ideal) x1 (ix2 i k) = cntR x1 i := by
  rw [val_main_v22_apply, val_main_v21_apply]
  have h : idx_main_v21 (idx_main_v22 (ix2 i k)) = ix1 i :=
    funext fun a => Fin.ext (by match a with | ⟨0, _⟩ => rfl)
  rw [h]

/-- The mean of the in-neighbours' rectified features. -/
theorem v23_ix (i : Fin 100000) (k : Fin 128) :
    val_main_v23 (F := Ideal) x0 x1 (ix2 i k)
      = Ideal.div (Cert.Sage.aggFeat x0 (sidxR x1) (didxR x1) i k) (cntR x1 i) := by
  rw [val_main_v23_apply, Ideal.hostDivf_def, v14_ix, v22_ix]

/-- (a) The reference's hidden layer at `(i, j)` is the specification's `hidFeat`. -/
theorem ref_hidden (i : Fin 100000) (j : Fin 64) :
    Read.val_main_v32 (F := Ideal) x0 x1 x2 x3 x4 (ix2 i j)
      = Cert.Sage.hidFeat x0 (sidxR x1) (didxR x1) (cntR x1) x2 x4 x3 i j := by
  have hl25 : ∀ k : Fin 128, lidx_main_v25 (ix2 i j) k = ix2 i k := fun k =>
    funext fun a => Fin.ext (by match a with | ⟨0, _⟩ => rfl | ⟨1, _⟩ => rfl)
  have hr25 : ∀ k : Fin 128, idx_main_v24 (ridx_main_v25 (ix2 i j) k) = ix2 j k := fun k =>
    funext fun a => Fin.ext (by match a with | ⟨0, _⟩ => rfl | ⟨1, _⟩ => rfl)
  have hl30 : ∀ k : Fin 128, lidx_main_v30 (ix2 i j) k = ix2 i k := fun k =>
    funext fun a => Fin.ext (by match a with | ⟨0, _⟩ => rfl | ⟨1, _⟩ => rfl)
  have hr30 : ∀ k : Fin 128, idx_main_v29 (ridx_main_v30 (ix2 i j) k) = ix2 j k := fun k =>
    funext fun a => Fin.ext (by match a with | ⟨0, _⟩ => rfl | ⟨1, _⟩ => rfl)
  have hb : idx_main_v26 (idx_main_v27 (ix2 i j)) = ix1 j :=
    funext fun a => Fin.ext (by match a with | ⟨0, _⟩ => rfl)
  rw [val_main_v32_apply, val_main_call1_v0_apply, val_main_call1_cst_apply, val_main_v31_apply, val_main_v28_apply,
    val_main_v25_apply, val_main_v30_apply, val_main_v27_apply, val_main_v26_apply, hb]
  simp only [val_main_v24_apply, val_main_v29_apply, hl25, hr25, hl30, hr30, v23_ix, v4_ix,
    Ideal.maximumf_def, Ideal.addf_def, Ideal.ofBits_def, Ideal.ofBits_zero_f32]
  unfold Cert.Sage.hidFeat Cert.Sage.root
  rfl

/-- (b) The reference's output at `(i, 0)` is the specification's head over `hidFeat`. -/
theorem ref_head (i : Fin 100000) :
    Read.val_main_v37 (F := Ideal) x0 x1 x2 x3 x4 x5 x6 (ix2 i (0 : Fin 1))
      = Cert.Sage.head x5 x6
          (fun i j => Cert.Sage.hidFeat x0 (sidxR x1) (didxR x1) (cntR x1) x2 x4 x3 i j) i := by
  have hl : ∀ k : Fin 64, lidx_main_v34 (ix2 i (0 : Fin 1)) k = ix2 i k := fun k =>
    funext fun a => Fin.ext (by match a with | ⟨0, _⟩ => rfl | ⟨1, _⟩ => rfl)
  have hr : ∀ k : Fin 64, idx_main_v33 (ridx_main_v34 (ix2 i (0 : Fin 1)) k) = ix2 (0 : Fin 1) k := fun k =>
    funext fun a => Fin.ext (by match a with | ⟨0, _⟩ => rfl | ⟨1, _⟩ => rfl)
  have hb : idx_main_v35 (idx_main_v36 (ix2 i (0 : Fin 1))) = ix1 (0 : Fin 1) :=
    funext fun a => Fin.ext (by match a with | ⟨0, _⟩ => rfl)
  rw [val_main_v37_apply, val_main_v34_apply, val_main_v36_apply, val_main_v35_apply, hb]
  simp only [val_main_v33_apply, hl, hr, ref_hidden, Ideal.addf_def]
  unfold Cert.Sage.head
  rfl

/-- The count scatter's operand is the constant zero. -/
theorem v16_eq : val_main_v16 (F := Ideal) = fun _ => (0 : EReal) := by
  funext i
  rw [val_main_v16_apply, val_main_cst_2_apply, Ideal.ofBits_def, Ideal.ofBits_zero_f32]

/-- The count scatter's updates are the constant one. -/
theorem v15_eq : val_main_v15 (F := Ideal) = fun _ => (1 : EReal) := by
  funext i
  rw [val_main_v15_apply, val_main_cst_1_apply, Ideal.ofBits_def, Ideal.ofBits_one_f32]

/-- The lower bound of the divisor is one. -/
theorem v19_ix (i : S100000.Idx) : val_main_v19 (F := Ideal) i = 1 := by
  rw [val_main_v19_apply, val_main_cst_3_apply, Ideal.ofBits_def, Ideal.ofBits_one_f32]

/-- (c) The count the reference divides by, `max (number of in-edges) 1`, is a nonzero real. -/
theorem cntR_real (i : Fin 100000) : ∃ r : ℝ, cntR x1 i = (r : EReal) ∧ r ≠ 0 := by
  obtain ⟨n, hn⟩ := hostScatterAdd_count scatter_S100000_S1600000x1_S1600000_n_0_0_1
    (val_main_v16 (F := Ideal)) (val_main_v17 (F := Ideal) x1) (val_main_v15 (F := Ideal)) v16_eq v15_eq (ix1 i)
  refine ⟨max (n : ℝ) 1, ?_, ?_⟩
  · show val_main_v20 (F := Ideal) x1 (ix1 i) = _
    rw [val_main_v20_apply, Ideal.maximumf_def, v19_ix, val_main_v18, hn, EReal.coe_strictMono.monotone.map_max, EReal.coe_one]
  · have h : (1 : ℝ) ≤ max (n : ℝ) 1 := le_max_right _ _
    intro h0
    rw [h0] at h
    norm_num at h

end Cert.Sage.Ref
end
-- ==== Proof.LibERealFinite.lean ====
/-
  Finiteness in the extended reals: an extended real is finite when it is neither infinity, that is, when it is
  the image of a real number.  Closure of finiteness under the arithmetic, order and rounding operations, and the
  identities that hold once one operand is known to be finite.
-/
import Mathlib.Tactic
import Idealize.ShloMosaic.PureOps.Ideal

noncomputable section

namespace Cert.Lib.Finite

open Idealize.ShloMosaic

/-- An extended real is finite when it is neither `⊤` nor `⊥`. -/
def Fin' (x : EReal) : Prop := x ≠ ⊤ ∧ x ≠ ⊥

/-- A finite extended real is the image of a real number. -/
theorem Fin'.exists_real {x : EReal} (h : Fin' x) : ∃ r : ℝ, x = (r : EReal) :=
  ⟨x.toReal, (EReal.coe_toReal h.1 h.2).symm⟩

/-- The image of a real number is finite. -/
theorem fin_coe (r : ℝ) : Fin' (r : EReal) := ⟨EReal.coe_ne_top r, EReal.coe_ne_bot r⟩

/-- Finite means: the image of a real number. -/
theorem fin_iff_exists_real {x : EReal} : Fin' x ↔ ∃ r : ℝ, x = (r : EReal) :=
  ⟨Fin'.exists_real, fun ⟨r, h⟩ => h ▸ fin_coe r⟩

/-- Of a real witness, finiteness. -/
theorem fin_of_eq_coe {x : EReal} {r : ℝ} (h : x = (r : EReal)) : Fin' x := h ▸ fin_coe r

theorem fin_zero : Fin' (0 : EReal) := by simpa using fin_coe 0
theorem fin_one : Fin' (1 : EReal) := by simpa using fin_coe 1

/-- The straight-through identity: adding to a finite `a` the difference `b - a` gives `b`, for every extended
    real `b`, the infinities included (`a + (⊤ - a) = ⊤`, `a + (⊥ - a) = ⊥`). -/
theorem add_sub_cancel {a : EReal} (ha : Fin' a) (b : EReal) : a + (b - a) = b := by
  obtain ⟨r, rfl⟩ := ha.exists_real
  induction b using EReal.rec with
  | bot => simp
  | top => simp
  | coe x => norm_cast; ring

/-- The same identity with the difference first. -/
theorem sub_add_cancel {a : EReal} (ha : Fin' a) (b : EReal) : (b - a) + a = b := by
  rw [add_comm]; exact add_sub_cancel ha b

/-! ### Closure -/

theorem fin_add {a b : EReal} (ha : Fin' a) (hb : Fin' b) : Fin' (a + b) := by
  obtain ⟨r, rfl⟩ := ha.exists_real; obtain ⟨t, rfl⟩ := hb.exists_real
  exact fin_of_eq_coe (EReal.coe_add r t).symm

theorem fin_sub {a b : EReal} (ha : Fin' a) (hb : Fin' b) : Fin' (a - b) := by
  obtain ⟨r, rfl⟩ := ha.exists_real; obtain ⟨t, rfl⟩ := hb.exists_real
  exact fin_of_eq_coe (EReal.coe_sub r t).symm

theorem fin_mul {a b : EReal} (ha : Fin' a) (hb : Fin' b) : Fin' (a * b) := by
  obtain ⟨r, rfl⟩ := ha.exists_real; obtain ⟨t, rfl⟩ := hb.exists_real
  exact fin_of_eq_coe (EReal.coe_mul r t).symm

theorem fin_neg {a : EReal} (ha : Fin' a) : Fin' (-a) := by
  obtain ⟨r, rfl⟩ := ha.exists_real
  exact fin_of_eq_coe (EReal.coe_neg r).symm

theorem fin_max {a b : EReal} (ha : Fin' a) (hb : Fin' b) : Fin' (max a b) := by
  rcases max_choice a b with h | h <;> rw [h] <;> assumption

theorem fin_min {a b : EReal} (ha : Fin' a) (hb : Fin' b) : Fin' (min a b) := by
  rcases min_choice a b with h | h <;> rw [h] <;> assumption

/-- Between two finite bounds, finite. -/
theorem fin_of_between {lo hi x : EReal} (hlo : Fin' lo) (hhi : Fin' hi) (h1 : lo ≤ x) (h2 : x ≤ hi) : Fin' x :=
  ⟨fun h => hhi.1 (top_le_iff.mp (h ▸ h2)), fun h => hlo.2 (le_bot_iff.mp (h ▸ h1))⟩

/-- A finite sum of finite terms is finite. -/
theorem fin_sum {ι : Type*} (s : Finset ι) (f : ι → EReal) (h : ∀ i ∈ s, Fin' (f i)) : Fin' (∑ i ∈ s, f i) := by
  classical
  induction s using Finset.induction_on with
  | empty => simpa using fin_zero
  | insert a s ha ih =>
    rw [Finset.sum_insert ha]
    exact fin_add (h a (Finset.mem_insert_self a s)) (ih fun i hi => h i (Finset.mem_insert_of_mem hi))

/-- The sum over a finite type of finite terms is finite. -/
theorem fin_sum_univ {ι : Type*} [Fintype ι] (f : ι → EReal) (h : ∀ i, Fin' (f i)) : Fin' (∑ i, f i) :=
  fin_sum Finset.univ f fun i _ => h i

/-- The sum of the images of reals is the image of the sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a finite extended real is finite. -/
theorem fin_exp {x : EReal} (hx : Fin' x) : Fin' (Ideal.exp x) := by
  obtain ⟨r, rfl⟩ := hx.exists_real
  exact fin_of_eq_coe (Ideal.exp_coe (r := r))

/-- The exponential of a finite extended real is positive. -/
theorem exp_pos {x : EReal} (hx : Fin' x) : 0 < Ideal.exp x := by
  obtain ⟨r, rfl⟩ := hx.exists_real
  rw [Ideal.exp_coe]; exact_mod_cast Real.exp_pos r

/-- The quotient of two reals, the divisor not zero, is the image of the real quotient. -/
theorem div_coe_coe (r : ℝ) {t : ℝ} (ht : t ≠ 0) : Ideal.div (r : EReal) (t : EReal) = ((r / t : ℝ) : EReal) := by
  rw [Ideal.div_coe ht, ← EReal.coe_mul, mul_one_div]

/-- The quotient of a finite extended real by a finite nonzero one is finite. -/
theorem fin_div {x s : EReal} (hx : Fin' x) (hs : Fin' s) (h0 : s ≠ 0) : Fin' (Ideal.div x s) := by
  obtain ⟨r, rfl⟩ := hx.exists_real; obtain ⟨t, rfl⟩ := hs.exists_real
  have ht : t ≠ 0 := fun h => h0 (by rw [h]; rfl)
  exact fin_of_eq_coe (div_coe_coe r ht)

/-- A rounding to the integers of a finite extended real is finite. -/
theorem fin_liftRound (f : ℝ → ℤ) {x : EReal} (hx : Fin' x) : Fin' (Ideal.liftRound f x) := by
  obtain ⟨r, rfl⟩ := hx.exists_real
  exact fin_of_eq_coe (Ideal.liftRound_coe (r := r) f)

/-! ### The clip bounds -/

/-- The pattern `0x42FE0000` denotes the real `127`. -/
theorem ofBits_127 : Ideal.ofBits .f32 0x42FE0000#32 = ((127 : ℝ) : EReal) := by
  simp [Ideal.ofBits, Ideal.ieee, -EReal.coe_mul]; norm_num

/-- The pattern `0xC2FE0000` denotes the real `-127`. -/
theorem ofBits_neg127 : Ideal.ofBits .f32 0xC2FE0000#32 = ((-127 : ℝ) : EReal) := by
  simp [Ideal.ofBits, Ideal.ieee, -EReal.coe_mul]; norm_num

/-- A value clipped to `[-127, 127]` is finite, whatever it was. -/
theorem fin_clip (y : EReal) :
    Fin' (min (Ideal.ofBits .f32 0x42FE0000#32) (max (Ideal.ofBits .f32 0xC2FE0000#32) y)) := by
  rw [ofBits_127, ofBits_neg127]
  refine fin_of_between (fin_coe (-127)) (fin_coe 127) (le_min ?_ (le_max_left _ _)) (min_le_left _ _)
  exact_mod_cast (by norm_num : (-127 : ℝ) ≤ 127)

/-! ### The quantization scale -/

/-- The pattern `0x322BCC77` denotes a positive real (`11258999 · 2⁻⁵⁰`, about `1e-8`). -/
theorem ofBits_eps : Ideal.ofBits .f32 0x322BCC77#32 = ((11258999 / 2 ^ 50 : ℝ) : EReal) := by
  simp [Ideal.ofBits, Ideal.ieee, -EReal.coe_mul]; norm_num

/-- That real is positive. -/
theorem ofBits_eps_pos : (0 : EReal) < Ideal.ofBits .f32 0x322BCC77#32 := by
  rw [ofBits_eps]; exact_mod_cast (by positivity : (0 : ℝ) < 11258999 / 2 ^ 50)

/-- The scale `max (M / 127) ε` of a finite `M` is finite. -/
theorem fin_scale {M : EReal} (hM : Fin' M) :
    Fin' (max (Ideal.div M (Ideal.ofBits .f32 0x42FE0000#32)) (Ideal.ofBits .f32 0x322BCC77#32)) := by
  refine fin_max (fin_div hM (fin_of_eq_coe ofBits_127) ?_) (fin_of_eq_coe ofBits_eps)
  rw [ofBits_127]; exact_mod_cast (by norm_num : (127 : ℝ) ≠ 0)

/-- The scale `max (M / 127) ε` is positive, whatever `M` is. -/
theorem scale_pos (M : EReal) :
    0 < max (Ideal.div M (Ideal.ofBits .f32 0x42FE0000#32)) (Ideal.ofBits .f32 0x322BCC77#32) :=
  lt_max_of_lt_right ofBits_eps_pos

/-- A positive extended real is not zero. -/
theorem scale_ne_zero (M : EReal) :
    max (Ideal.div M (Ideal.ofBits .f32 0x42FE0000#32)) (Ideal.ofBits .f32 0x322BCC77#32) ≠ 0 :=
  (scale_pos M).ne'

/-! ### Folding the maximum over a finite set -/

/-- Folding `max` from `⊥` is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Every entry is below the folded maximum. -/
theorem le_fold_max {ι : Type*} {s : Finset ι} (f : ι → EReal) {i : ι} (hi : i ∈ s) : f i ≤ s.fold max ⊥ f := by
  rw [fold_max_eq_sup]; exact Finset.le_sup hi

/-- A bound of every entry bounds the folded maximum. -/
theorem fold_max_le {ι : Type*} {s : Finset ι} {f : ι → EReal} {c : EReal} (h : ∀ i ∈ s, f i ≤ c) :
    s.fold max ⊥ f ≤ c := by
  rw [fold_max_eq_sup]; exact Finset.sup_le h

/-- A bound of every entry that one entry attains is the folded maximum. -/
theorem fold_max_eq_of_le_of_mem {ι : Type*} {s : Finset ι} {f : ι → EReal} {c : EReal} (h : ∀ i ∈ s, f i ≤ c)
    {i : ι} (hi : i ∈ s) (hc : f i = c) : s.fold max ⊥ f = c :=
  le_antisymm (fold_max_le h) (hc ▸ le_fold_max f hi)

/-- Over a nonempty finite set the folded maximum is one of the entries. -/
theorem exists_fold_max_eq {ι : Type*} {s : Finset ι} (hs : s.Nonempty) (f : ι → EReal) :
    ∃ i ∈ s, s.fold max ⊥ f = f i := by
  rw [fold_max_eq_sup]; exact Finset.exists_mem_eq_sup s hs f

/-- Over a nonempty finite type the folded maximum of finite entries is finite. -/
theorem fin_fold_max {ι : Type*} [Fintype ι] [Nonempty ι] (f : ι → EReal) (h : ∀ i, Fin' (f i)) :
    Fin' (Finset.univ.fold max ⊥ f) := by
  obtain ⟨i, -, hi⟩ := exists_fold_max_eq Finset.univ_nonempty f
  rw [hi]; exact h i

/-- The folded maximum of the images of reals is the image of their supremum. -/
theorem fold_max_coe {ι : Type*} {s : Finset ι} (hs : s.Nonempty) (g : ι → ℝ) :
    s.fold max ⊥ (fun i => (g i : EReal)) = ((s.sup' hs g : ℝ) : EReal) := by
  obtain ⟨i, hi, h⟩ := Finset.exists_mem_eq_sup' hs g
  refine fold_max_eq_of_le_of_mem (fun j hj => ?_) hi (by rw [h])
  exact_mod_cast Finset.le_sup' g hj

/-- Re-indexing along a bijection does not change the folded maximum. -/
theorem fold_max_equiv {ι κ : Type*} [Fintype ι] [Fintype κ] (e : ι ≃ κ) (b : EReal) (f : κ → EReal) :
    Finset.univ.fold max b (f ∘ e) = Finset.univ.fold max b f := by
  have h := Finset.fold_map (op := max) (b := b) (g := e.toEmbedding) (f := f) (s := Finset.univ)
  rw [Finset.map_univ_equiv] at h
  exact h.symm

end Cert.Lib.Finite

end
-- ==== Proof.MeanProject.lean ====
/-
  The mean of projected rows is the projection of the mean row.

  For a finite set `B` of edges, finite entries `a e k` (edge `e`, feature `k`), finite weights `w k` and a
  nonzero real count `r`,

      (∑ e ∈ B, ∑ k, a e k * w k) * (1 / r) = ∑ k, ((∑ e ∈ B, a e k) / r) * w k.

  Over the reals this is an exchange of the two sums and distributivity.  On the extended reals distributivity
  fails at the infinities, so the identity is stated for finite entries only and proved by naming the real
  number behind every entry, moving the embedding of the reals outside the products, the sums and the quotient,
  and invoking the real identity.  The two arrangements of the hidden value differ in this term only.
-/
import Mathlib.Tactic
import proofs.«165032_j76149770158552_2_alg».proof.Proof.Spec
import proofs.«165032_j76149770158552_2_alg».proof.Proof.LibERealFinite

noncomputable section

namespace Cert.Sage

open Idealize.ShloMosaic Idealize.ShloMosaic.ValueIdx
open Cert.Lib.Finite
open scoped BigOperators

/-- Over the reals: summing the projected rows and scaling by `1 / r` is projecting the row of scaled sums.
    (No condition on `r`: in the reals both sides vanish when `r = 0`.) -/
theorem mean_project_real {ι κ : Type*} [Fintype κ] (B : Finset ι) (a : ι → κ → ℝ) (w : κ → ℝ) (r : ℝ) :
    (∑ e ∈ B, ∑ k, a e k * w k) * (1 / r) = ∑ k, (∑ e ∈ B, a e k) / r * w k := by
  rw [Finset.sum_comm, Finset.sum_mul]
  refine Finset.sum_congr rfl fun k _ => ?_
  rw [← Finset.sum_mul]
  ring

/-- The same identity for images of reals in the extended reals, the count a nonzero real. -/
theorem mean_project_coe {ι κ : Type*} [Fintype κ] (B : Finset ι) (a : ι → κ → ℝ) (w : κ → ℝ) {r : ℝ}
    (hr : r ≠ 0) :
    (∑ e ∈ B, ∑ k, (a e k : EReal) * (w k : EReal)) * Ideal.div 1 (r : EReal)
      = ∑ k, Ideal.div (∑ e ∈ B, (a e k : EReal)) (r : EReal) * (w k : EReal) := by
  have hL : (∑ e ∈ B, ∑ k, (a e k : EReal) * (w k : EReal)) = ((∑ e ∈ B, ∑ k, a e k * w k : ℝ) : EReal) := by
    simp_rw [← EReal.coe_mul, coe_sum]
  have hD : Ideal.div 1 (r : EReal) = ((1 / r : ℝ) : EReal) := by
    rw [← EReal.coe_one, div_coe_coe 1 hr]
  have hR : ∀ k, Ideal.div (∑ e ∈ B, (a e k : EReal)) (r : EReal) * (w k : EReal)
      = (((∑ e ∈ B, a e k) / r * w k : ℝ) : EReal) := by
    intro k
    rw [coe_sum, div_coe_coe _ hr, ← EReal.coe_mul]
  rw [hL, hD, ← EReal.coe_mul, Finset.sum_congr rfl fun k _ => hR k, coe_sum, mean_project_real]

/-- The identity on the extended reals, every entry and every weight finite, the count a nonzero real. -/
theorem mean_project_ereal {ι κ : Type*} [Fintype κ] (B : Finset ι) (a : ι → κ → EReal) (w : κ → EReal)
    (ha : ∀ e k, Fin' (a e k)) (hw : ∀ k, Fin' (w k)) {r : ℝ} (hr : r ≠ 0) :
    (∑ e ∈ B, ∑ k, a e k * w k) * Ideal.div 1 (r : EReal)
      = ∑ k, Ideal.div (∑ e ∈ B, a e k) (r : EReal) * w k := by
  choose a' ha' using fun e k => (ha e k).exists_real
  choose w' hw' using fun k => (hw k).exists_real
  obtain rfl : a = fun e k => (a' e k : EReal) := funext fun e => funext fun k => ha' e k
  obtain rfl : w = fun k => (w' k : EReal) := funext hw'
  exact mean_project_coe B a' w' hr

/-- The rectified value of a finite extended real is finite. -/
theorem fin_relu {v : EReal} (hv : Fin' v) : Fin' (relu v) := fin_max hv fin_zero

/-- The two arrangements of the hidden value agree when the features and the weights `Wl` are finite and every
    count is a nonzero real. -/
theorem hidProj_eq_hidFeat (x : (⟨2, ![100000, 128]⟩ : Shape).Idx → EReal)
    (sidx didx : (⟨2, ![1600000, 1]⟩ : Shape).Idx → BitVec 32)
    (c : Fin 100000 → EReal)
    (Wl Wr : (⟨2, ![64, 128]⟩ : Shape).Idx → EReal) (bl : (⟨1, ![64]⟩ : Shape).Idx → EReal)
    (hx : ∀ p, Fin' (x p)) (hW : ∀ p, Fin' (Wl p)) (hc : ∀ i, ∃ r : ℝ, c i = (r : EReal) ∧ r ≠ 0)
    (i : Fin 100000) (j : Fin 64) :
    hidProj x sidx didx c Wl Wr bl i j = hidFeat x sidx didx c Wl Wr bl i j := by
  obtain ⟨r, hr, hr0⟩ := hc i
  have key : aggProj x sidx didx Wl i j * Ideal.div 1 (c i)
      = ∑ k : Fin 128, Ideal.div (aggFeat x sidx didx i k) (c i) * Wl (ix2 j k) := by
    rw [hr]
    exact mean_project_ereal (inEdges didx i) (fun e k => relu (x (ix2 (srcRow sidx e) k)))
      (fun k => Wl (ix2 j k)) (fun _ _ => fin_relu (hx _)) (fun _ => hW _) hr0
  unfold hidProj hidFeat
  rw [key]

end Cert.Sage

end
-- ==== Proof.FiniteInputs.lean ====
/-
  The precondition read back: every entry of the first and of the third float argument is finite.

  The predicate computes, for each float argument `a`, the conjunction over all entries of the bit `|a p| < +∞`
  (a reduction by `and` from the constant 1 over every axis), and joins the six results by `and`. The hypothesis
  says the joined bit is 1. A conjunction of bits is 1 only when both are; a reduction by `and` into a single
  entry is 1 only when every entry reduced is 1; and in the extended reals `max x (-x) < ⊤` excludes `x = ⊤`
  (then `max x (-x) = ⊤`) and `x = ⊥` (then `-x = ⊤`), which leaves the image of a real number.
-/
import proofs.«165032_j76149770158552_2_alg».proof.Defs
import proofs.«165032_j76149770158552_2_alg».proof.Proof.Gen.Pre_finite_inputs
import proofs.«165032_j76149770158552_2_alg».proof.Proof.LibERealFinite
import Idealize.ShloMosaic.Lib.ReduceAll
import Idealize.ShloMosaic.Lib.ValueIdx

noncomputable section

namespace Cert.Sage.Pre

open Idealize.ShloMosaic Cert.Lib.Finite

/-- A shape of rank 0 has one index. -/
instance : Subsingleton Cert.Pre_finite_inputs.S_.Idx := ⟨fun a b => funext fun d => d.elim0⟩

/-- The pattern `0x7F800000` (exponent all ones, significand zero, sign clear) denotes `+∞`. -/
theorem ofBits_inf : Ideal.ofBits .f32 0x7F800000#32 = (⊤ : EReal) := by
  simp [Ideal.ofBits, Ideal.ieee]

/-- When the bit `|x| < +∞` is 1, `x` is finite: `⊤` and `⊥` both have absolute value `⊤`. -/
theorem fin_of_abs_lt_inf (x : EReal)
    (h : Ideal.cmp .olt (max x (-x)) (Ideal.ofBits .f32 0x7F800000#32) = 1#1) : Fin' x := by
  rw [ofBits_inf] at h
  unfold Ideal.cmp at h
  induction x using EReal.rec with
  | bot => simp at h
  | top => simp at h
  | coe r => exact fin_coe r

/-- One `jnp.all(|a| < +∞)` read back: when the reduction by `and` over every axis of the entrywise bits
    `|a p| < +∞` is 1, every entry of `a` is finite. -/
theorem all_fin {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf a)
            (broadcastInDim s ![] hb (constant Cert.Pre_finite_inputs.S_ .f32 0x7F800000#32)))
          init hr hu ValueIdx.ix0 = 1#1) :
    ∀ p, Fin' (a p) := by
  intro p
  have hp := Host.reduce_andi_all _ init hr hu ValueIdx.ix0 h p
  exact fin_of_abs_lt_inf (a p) hp

/-- The precondition gives the finiteness of every entry of the first and of the third argument. -/
theorem finite_of_pre [Cert.Pre_finite_inputs.Facts]
    (a0 : FVec Ideal Cert.Pre_finite_inputs.S100000x128 .f32) (a1 : IVec Cert.Pre_finite_inputs.S2x1600000 32)
    (a2 : FVec Ideal Cert.Pre_finite_inputs.S64x128 .f32) (a3 : FVec Ideal Cert.Pre_finite_inputs.S64 .f32)
    (a4 : FVec Ideal Cert.Pre_finite_inputs.S64x128 .f32) (a5 : FVec Ideal Cert.Pre_finite_inputs.S1x64 .f32)
    (a6 : FVec Ideal Cert.Pre_finite_inputs.S1 .f32)
    (h : Cert.Pre_finite_inputs.fn (F := Ideal) a0 a1 a2 a3 a4 a5 a6 = fun _ => 1#1) :
    (∀ p, Fin' (a0 p)) ∧ (∀ p, Fin' (a2 p)) := by
  have h0 := congrFun h ValueIdx.ix0
  dsimp only [Cert.Pre_finite_inputs.fn, Cert.Pre_finite_inputs.fn_part1] at h0
  -- the joined bit is 1: peel the five conjunctions, keeping the two innermost reductions
  obtain ⟨h5, -⟩ := IntOp.andi_eq_one.1 h0
  obtain ⟨h4, -⟩ := IntOp.andi_eq_one.1 h5
  obtain ⟨h3, -⟩ := IntOp.andi_eq_one.1 h4
  obtain ⟨h2, -⟩ := IntOp.andi_eq_one.1 h3
  obtain ⟨hA, hB⟩ := IntOp.andi_eq_one.1 h2
  exact ⟨all_fin a0 _ _ _ _ hA, all_fin a2 _ _ _ _ hB⟩

end Cert.Sage.Pre

end
-- ==== Proof.Claims.lean ====
/-
  The five claims.

  The three frames: the two kernel programs' are generated; the reference has no launch, and its frame is its run with
  the results dropped.  The idealization changed nothing, so `preserves` has no conjunct.

  `algebraic`: at the extended reals both programs end with the same two arrays.  The idealized kernel's results are
  the specification's hidden array in the arrangement that projects the features to 64 columns before aggregating
  over in-edges and multiplies by the reciprocal of the in-degree; the reference's are the arrangement that aggregates
  the 128 features, divides by the in-degree and projects the mean.  Both read the same source rows, the same
  in-edges and the same in-degree (the index arithmetic is one term on both sides), and for finite features and finite
  first weight matrix — which the precondition gives — the two arrangements agree, by linearity of the projection
  over the finite sums.  The head is the same function of the hidden array on both sides.
-/
import proofs.«165032_j76149770158552_2_alg».proof.Defs
import proofs.«165032_j76149770158552_2_alg».proof.Proof.Gen.Kernel.Frame
import proofs.«165032_j76149770158552_2_alg».proof.Proof.Gen.KernelIdeal.Frame
import proofs.«165032_j76149770158552_2_alg».proof.Proof.Gen.ReferenceIdeal.Run
import proofs.«165032_j76149770158552_2_alg».proof.Proof.Gen.ReferenceIdeal.Read
import proofs.«165032_j76149770158552_2_alg».proof.Proof.Gen.Pre_finite_inputs
import proofs.«165032_j76149770158552_2_alg».proof.Proof.KernelValue
import proofs.«165032_j76149770158552_2_alg».proof.Proof.RefValue
import proofs.«165032_j76149770158552_2_alg».proof.Proof.MeanProject
import proofs.«165032_j76149770158552_2_alg».proof.Proof.FiniteInputs

set_option maxRecDepth 16384

noncomputable section

open Idealize.ShloMosaic Idealize.ShloMosaic.TcCoe Idealize.SL.Sem Idealize.ShloMosaic.ValueIdx

namespace Cert.Sage.Same

open Cert.KernelIdeal.HostSide Cert.Sage.Ref

/-- The source start indices are one term of the edge-index array in both programs. -/
theorem sidx_same (x1 : IVec (⟨2, ![2, 1600000]⟩ : Shape) 32) : sidxR x1 = sidxK x1 := rfl

/-- So are the destinations. -/
theorem didx_same (x1 : IVec (⟨2, ![2, 1600000]⟩ : Shape) 32) : didxR x1 = didxK x1 := rfl

/-- So is the in-degree, at least one. -/
theorem cnt_same (x1 : IVec (⟨2, ![2, 1600000]⟩ : Shape) 32) : cntR x1 = cntK x1 :=
  funext fun i => congrFun (rfl : Cert.ReferenceIdeal.Read.val_main_v20 (F := Ideal) x1 = _) (ix1 i)

end Cert.Sage.Same

namespace Cert.Proof.SageClaims

open Cert.Lib.Finite

/-- The word-level kernel program runs and leaves its arguments unchanged (generated). -/
theorem frame_k : Cert.frame_Kernel := fun m ρ _ => Cert.Kernel.Gen.frame m ρ
/-- So does the idealized kernel program (generated). -/
theorem frame_ki : Cert.frame_KernelIdeal := fun m ρ _ => Cert.KernelIdeal.Gen.frame m ρ
/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The two arrangements of the hidden value agree at the idealized kernel's arguments, under the precondition. -/
theorem hidden_agree (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 100000) (j : Fin 64) :
    Cert.Sage.hidFeat (m ((c.tc : Thread Cert.KernelIdeal.nD Cert.KernelIdeal.τ).loc Cert.KernelIdeal.main_arg0))
        (Cert.Sage.Ref.sidxR (m ((c.tc : Thread Cert.KernelIdeal.nD Cert.KernelIdeal.τ).loc Cert.KernelIdeal.main_arg1)))
        (Cert.Sage.Ref.didxR (m ((c.tc : Thread Cert.KernelIdeal.nD Cert.KernelIdeal.τ).loc Cert.KernelIdeal.main_arg1)))
        (Cert.Sage.Ref.cntR (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg3)) i j
      = Cert.KernelIdeal.Hand.hidK m c i j := by
  obtain ⟨hx, hW⟩ := Cert.Sage.Pre.finite_of_pre _ _ _ _ _ _ _ (hpre c)
  unfold Cert.KernelIdeal.Hand.hidK
  rw [← Cert.Sage.Same.sidx_same, ← Cert.Sage.Same.didx_same, ← Cert.Sage.Same.cnt_same]
  exact (Cert.Sage.hidProj_eq_hidFeat _ _ _ _ _ _ _ hx hW (fun i => Cert.Sage.Ref.cntR_real _ i) i j).symm

/-- From memories that agree on the arguments both programs end with the specification's hidden array (in the
    arrangement that projects first) and its head: the kernel by its run read back, the reference by its run read at an
    index and the agreement of the two arrangements. -/
theorem algebraic : Cert.algebraic_KernelIdeal_ReferenceIdeal := by
  intro m ρ m' ρ' hpre hagree
  refine ⟨fun c => Cert.KernelIdeal.Hand.hidRes m c, fun c => Cert.KernelIdeal.Hand.headRes m c,
    Cert.KernelIdeal.Hand.run_value m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · refine (Cert.ReferenceIdeal.Read.val_main_v32_eq _ _ _ _ _).trans ?_
    rw [a0, a1, a2, a3, a4]
    funext i
    obtain ⟨n, j, rfl⟩ : ∃ (n : Fin 100000) (j : Fin 64), i = ix2 n j := ⟨i 0, i 1, eq_ix2 i⟩
    refine (Cert.Sage.Ref.ref_hidden _ _ _ _ _ n j).trans ?_
    exact hidden_agree m hpre c n j
  · refine (Cert.ReferenceIdeal.Read.val_main_v37_eq _ _ _ _ _ _ _).trans ?_
    rw [a0, a1, a2, a3, a4, a5, a6]
    funext i
    obtain ⟨n, u, rfl⟩ : ∃ (n : Fin 100000) (u : Fin 1), i = ix2 n u := ⟨i 0, i 1, eq_ix2 i⟩
    obtain rfl : u = 0 := Subsingleton.elim _ _
    refine (Cert.Sage.Ref.ref_head _ _ _ _ _ _ _ n).trans ?_
    exact congrArg (fun h => Cert.Sage.head _ _ h n)
      (funext fun i' => funext fun j' => hidden_agree m hpre c i' j')

end Cert.Proof.SageClaims

end
-- ==== Proof.lean ====
/-
  One layer of mean-aggregation message passing on a graph with 100000 nodes and 1600000 edges, and a linear head:
  the two-launch kernel program against the plain reference, over the extended reals.

  The kernel projects every node's rectified features to 64 columns in a first launch, lets the host gather the
  projected rows of the edges' sources, add them into their destinations' rows and count the edges per destination,
  and in a second launch multiplies the aggregate by the reciprocal of the count, adds the bias and the node's own
  projected features, rectifies, and applies the head.  The reference aggregates the 128 rectified features, divides
  by the count and only then projects.  For finite inputs the two are one function, because a projection is linear
  and commutes with a finite sum and a division by a nonzero real: `Proof/MeanProject.lean`.  The modules under
  `Proof/` read each program's two results as that specification's functions of the arguments
  (`Proof/Spec.lean`), and `Proof/Claims.lean` assembles the five claims.
-/
import proofs.«165032_j76149770158552_2_alg».proof.Defs
import proofs.«165032_j76149770158552_2_alg».proof.Proof.Gen.Kernel
import proofs.«165032_j76149770158552_2_alg».proof.Proof.Gen.Kernel.Skeleton
import proofs.«165032_j76149770158552_2_alg».proof.Proof.Gen.Kernel.Launch
import proofs.«165032_j76149770158552_2_alg».proof.Proof.Gen.Kernel.Points
import proofs.«165032_j76149770158552_2_alg».proof.Proof.Gen.Kernel.Frame
import proofs.«165032_j76149770158552_2_alg».proof.Proof.Gen.KernelIdeal
import proofs.«165032_j76149770158552_2_alg».proof.Proof.Gen.KernelIdeal.Skeleton
import proofs.«165032_j76149770158552_2_alg».proof.Proof.Gen.KernelIdeal.Launch
import proofs.«165032_j76149770158552_2_alg».proof.Proof.Gen.KernelIdeal.Points
import proofs.«165032_j76149770158552_2_alg».proof.Proof.Gen.KernelIdeal.Frame
import proofs.«165032_j76149770158552_2_alg».proof.Proof.Gen.ReferenceIdeal
import proofs.«165032_j76149770158552_2_alg».proof.Proof.Gen.Pre_finite_inputs
import proofs.«165032_j76149770158552_2_alg».proof.Proof.Gen.ReferenceIdeal.Run
import proofs.«165032_j76149770158552_2_alg».proof.Proof.Gen.ReferenceIdeal.Read
import proofs.«165032_j76149770158552_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
